-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S64x128 : Shape := ⟨2, ![64, 128]⟩
abbrev S128 : Shape := ⟨1, ![128]⟩
abbrev S128x128 : Shape := ⟨2, ![128, 128]⟩
abbrev S32x128 : Shape := ⟨2, ![32, 128]⟩
abbrev S128x64 : Shape := ⟨2, ![128, 64]⟩
abbrev S64 : Shape := ⟨1, ![64]⟩
abbrev S64x32 : Shape := ⟨2, ![64, 32]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S32x128 : S_.BroadcastsInDim S32x128 (![] : Fin 0 → Fin S32x128.rank)
  reducesTo_S32x128_S_d0_1 : S32x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_

variable [Facts]

def fn_part3 {F : FTy → Type} [FloatOps F] (main_arg11 : FVec F S64 .f32) (main_arg12 : FVec F S64x32 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg12
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  main_v63

def fn_part2 {F : FTy → Type} [FloatOps F] (main_arg7 : FVec F S128 .f32) (main_arg8 : FVec F S128x128 .f32) (main_arg9 : FVec F S128 .f32) (main_arg10 : FVec F S128x64 .f32) (main_arg11 : FVec F S64 .f32) (main_arg12 : FVec F S64x32 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_v48 main_v49 main_v50

def fn_part1 {F : FTy → Type} [FloatOps F] (main_arg4 : FVec F S128x128 .f32) (main_arg5 : FVec F S128 .f32) (main_arg6 : FVec F S32x128 .f32) (main_arg7 : FVec F S128 .f32) (main_arg8 : FVec F S128x128 .f32) (main_arg9 : FVec F S128 .f32) (main_arg10 : FVec F S128x64 .f32) (main_arg11 : FVec F S64 .f32) (main_arg12 : FVec F S64x32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x128 .f32 := Host.absf main_arg6
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x64 .f32) (main_arg1 : FVec F S800000x32 .f32) (main_arg2 : FVec F S64x128 .f32) (main_arg3 : FVec F S128 .f32) (main_arg4 : FVec F S128x128 .f32) (main_arg5 : FVec F S128 .f32) (main_arg6 : FVec F S32x128 .f32) (main_arg7 : FVec F S128 .f32) (main_arg8 : FVec F S128x128 .f32) (main_arg9 : FVec F S128 .f32) (main_arg10 : FVec F S128x64 .f32) (main_arg11 : FVec F S64 .f32) (main_arg12 : FVec F S64x32 .f32) (main_arg13 : IVec S800000 32) (main_arg14 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S50000x64 : Shape := ⟨2, ![50000, 64]⟩
abbrev S800000x32 : Shape := ⟨2, ![800000, 32]⟩
abbrev S64x128 : Shape := ⟨2, ![64, 128]⟩
abbrev S128 : Shape := ⟨1, ![128]⟩
abbrev S128x128 : Shape := ⟨2, ![128, 128]⟩
abbrev S32x128 : Shape := ⟨2, ![32, 128]⟩
abbrev S128x64 : Shape := ⟨2, ![128, 64]⟩
abbrev S64 : Shape := ⟨1, ![64]⟩
abbrev S64x32 : Shape := ⟨2, ![64, 32]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S1x64 : Shape := ⟨2, ![1, 64]⟩
abbrev S3200x64 : Shape := ⟨2, ![3200, 64]⟩
abbrev S3200x32 : Shape := ⟨2, ![3200, 32]⟩
abbrev S3200x128 : Shape := ⟨2, ![3200, 128]⟩

abbrev nBuf : Space → Nat
  | .hbm => 54
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S32x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x64, .f32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S800000x32, .f32⟩
  | .local _ .vmem, ⟨0, _⟩ => ⟨S3200x64, .f32⟩
  | .local _ .vmem, ⟨1, _⟩ => ⟨S3200x64, .f32⟩
  | .local _ .vmem, ⟨2, _⟩ => ⟨S3200x32, .f32⟩
  | .local _ .vmem, ⟨3, _⟩ => ⟨S3200x32, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S32x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S3200x64, .f32⟩
  | .local _ .vmem, ⟨15, _⟩ => ⟨S3200x64, .f32⟩
  | .local _ .vmem, ⟨16, _⟩ => ⟨S3200x64, .f32⟩
  | .local _ .vmem, ⟨17, _⟩ => ⟨S3200x64, .f32⟩
  | .local _ .vmem, ⟨18, _⟩ => ⟨S3200x64, .f32⟩
  | .local _ .vmem, ⟨19, _⟩ => ⟨S3200x64, .f32⟩
  | .local _ .vmem, ⟨20, _⟩ => ⟨S3200x32, .f32⟩
  | .local _ .vmem, ⟨21, _⟩ => ⟨S3200x32, .f32⟩
  | .local _ .vmem, ⟨22, _⟩ => ⟨S64x32, .f32⟩
  | .local _ .vmem, ⟨23, _⟩ => ⟨S3200x32, .f32⟩
  | .local _ .vmem, ⟨24, _⟩ => ⟨S3200x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3200x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3200x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S64_S1x64 : S64.ShapeCasts S1x64
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  bitsLt_bf16_f32 : FTy.bits .bf16 < FTy.bits .f32
  inb_S3200x32_S3200x32_0_0 : ∀ a, (![0, 0] : Fin 2 → Nat) a + S3200x32.size a ≤ S3200x32.size a
  h_S3200x32 : 0 < S3200x32.numel
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  inb_S32x128_S32x128_0_0 : ∀ a, (![0, 0] : Fin 2 → Nat) a + S32x128.size a ≤ S32x128.size a
  h_S32x128 : 0 < S32x128.numel
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x128_S3200x128 : S1x128.Broadcasts S3200x128
  broadcasts_S1x64_S3200x64 : S1x64.Broadcasts S3200x64
  bcast_S_S50000x64 : S_.BroadcastsInDim S50000x64 (![] : Fin 0 → Fin S50000x64.rank)
  inb_S64x32_S64x32_0_0 : ∀ a, (![0, 0] : Fin 2 → Nat) a + S64x32.size a ≤ S64x32.size a
  h_S64x32 : 0 < S64x32.numel
  gather_S50000x64_S800000x1_S800000x64_1_0_n_n_0_1_164_wf : GatherDims.WF S50000x64 S800000x1 S800000x64 [1] [0] [] [0] [] 1 ![1, 64]
  dot_S3200x64_S64x128_S3200x128_1_0_0_1_n_n_wf : DotDims.WF S3200x64 S64x128 S3200x128 [1] [0] [0] [1] [] []
  dot_S3200x128_S128x128_S3200x128_1_0_0_1_n_n_wf : DotDims.WF S3200x128 S128x128 S3200x128 [1] [0] [0] [1] [] []
  dot_S3200x32_S32x128_S3200x128_1_0_0_1_n_n_wf : DotDims.WF S3200x32 S32x128 S3200x128 [1] [0] [0] [1] [] []
  dot_S3200x128_S128x64_S3200x64_1_0_0_1_n_n_wf : DotDims.WF S3200x128 S128x64 S3200x64 [1] [0] [0] [1] [] []
  scatter_S50000x64_S800000x1_S800000x64_1_0_0_1_wf : ScatterDims.WF S50000x64 S800000x1 S800000x64 [1] [0] [0] 1
  dot_S3200x64_S64x32_S3200x32_1_0_0_1_n_n_wf : DotDims.WF S3200x64 S64x32 S3200x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S800000x64.size a
  hwx0_0 : ∀ i : grid0.Coords, EltTy.bits .f32 = 32 ∨ (Rect.block (s := S800000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x32.size a ≤ S800000x32.size a
  hwx0_1 : ∀ i : grid0.Coords, EltTy.bits .f32 = 32 ∨ (Rect.block (s := S800000x32) S3200x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x128.size a
  hwx0_6 : ∀ i : grid0.Coords, EltTy.bits .f32 = 32 ∨ (Rect.block (s := S32x128) S32x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3200x64.size a ≤ S800000x64.size a
  hwx0_12 : ∀ i : grid0.Coords, EltTy.bits .f32 = 32 ∨ (Rect.block (s := S800000x64) S3200x64.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x64.size a ≤ S800000x64.size a
  hwx1_0 : ∀ i : grid1.Coords, EltTy.bits .f32 = 32 ∨ (Rect.block (s := S800000x64) S3200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S800000x64.size a
  hwx1_1 : ∀ i : grid1.Coords, EltTy.bits .f32 = 32 ∨ (Rect.block (s := S800000x64) S3200x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x32.size a ≤ S800000x32.size a
  hwx1_2 : ∀ i : grid1.Coords, EltTy.bits .f32 = 32 ∨ (Rect.block (s := S800000x32) S3200x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3200x32.size a ≤ S800000x32.size a
  hwx1_4 : ∀ i : grid1.Coords, EltTy.bits .f32 = 32 ∨ (Rect.block (s := S800000x32) S3200x32.size (cc1_transform_4 i) (hinb1_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S3200x64_S64x128_S3200x128_1_0_0_1_n_n : DotDims S3200x64 S64x128 S3200x128 where
  lhsContracting := [1]
  rhsContracting := [0]
  lhsNonContracting := [0]
  rhsNonContracting := [1]
  lhsBatch := []
  rhsBatch := []
  wf := dot_S3200x64_S64x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x32_S32x128_S3200x128_1_0_0_1_n_n : DotDims S3200x32 S32x128 S3200x128 where
  lhsContracting := [1]
  rhsContracting := [0]
  lhsNonContracting := [0]
  rhsNonContracting := [1]
  lhsBatch := []
  rhsBatch := []
  wf := dot_S3200x32_S32x128_S3200x128_1_0_0_1_n_n_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S3200x64_S64x32_S3200x32_1_0_0_1_n_n : DotDims S3200x64 S64x32 S3200x32 where
  lhsContracting := [1]
  rhsContracting := [0]
  lhsNonContracting := [0]
  rhsNonContracting := [1]
  lhsBatch := []
  rhsBatch := []
  wf := dot_S3200x64_S64x32_S3200x32_1_0_0_1_n_n_wf

abbrev win0_0 : Pipeline.Window sig grid0 :=
  Pipeline.Window.ofSpec (Memref.whole main_v6) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3200x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S3200x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v23) S3200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S3200x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S3200x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x32 : Shape := ⟨2, ![800000, 32]⟩
abbrev S64x128 : Shape := ⟨2, ![64, 128]⟩
abbrev S128 : Shape := ⟨1, ![128]⟩
abbrev S128x128 : Shape := ⟨2, ![128, 128]⟩
abbrev S32x128 : Shape := ⟨2, ![32, 128]⟩
abbrev S128x64 : Shape := ⟨2, ![128, 64]⟩
abbrev S64 : Shape := ⟨1, ![64]⟩
abbrev S64x32 : Shape := ⟨2, ![64, 32]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128 : Shape := ⟨2, ![1, 128]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S32x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S800000x128, .f32⟩
  | .hbm, ⟨25, _⟩ => ⟨S1x128, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S800000x128, .f32⟩
  | .hbm, ⟨30, _⟩ => ⟨S800000x128, .f32⟩
  | .hbm, ⟨31, _⟩ => ⟨S800000x128, .f32⟩
  | .hbm, ⟨32, _⟩ => ⟨S1x128, .f32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S800000x64, .f32⟩
  | .hbm, ⟨48, _⟩ => ⟨S1x64, .f32⟩
  | .hbm, ⟨49, _⟩ => ⟨S800000x64, .f32⟩
  | .hbm, ⟨50, _⟩ => ⟨S800000x64, .f32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S800000x32, .f32⟩
  | .hbm, ⟨59, _⟩ => ⟨S800000x32, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x64, .f32⟩
  | .hbm, ⟨78, _⟩ => ⟨S800000x64, .f32⟩
  | .hbm, ⟨79, _⟩ => ⟨S800000x32, .f32⟩
  | .hbm, ⟨80, _⟩ => ⟨S_, .f32⟩
  | .hbm, ⟨81, _⟩ => ⟨S800000x32, .f32⟩
  | .hbm, ⟨82, _⟩ => ⟨S800000x32, .f32⟩
  | .hbm, ⟨83, _⟩ => ⟨S800000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call0_cst : Ref sig .tc := ⟨.hbm, 28, rfl⟩
abbrev main_call0_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_cst : Ref sig .tc := ⟨.hbm, 39, rfl⟩
abbrev main_call1_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_1 : Ref sig .tc := ⟨.hbm, 57, rfl⟩
abbrev main_v35 : Ref sig .tc := ⟨.hbm, 58, rfl⟩
abbrev main_v36 : Ref sig .tc := ⟨.hbm, 59, rfl⟩
abbrev main_c_2 : Ref sig .tc := ⟨.hbm, 60, rfl⟩
abbrev main_v37 : Ref sig .tc := ⟨.hbm, 61, rfl⟩
abbrev main_v38 : Ref sig .tc := ⟨.hbm, 62, rfl⟩
abbrev main_c_3 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_4 : Ref sig .tc := ⟨.hbm, 69, rfl⟩
abbrev main_v44 : Ref sig .tc := ⟨.hbm, 70, rfl⟩
abbrev main_v45 : Ref sig .tc := ⟨.hbm, 71, rfl⟩
abbrev main_c_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S800000x32 : S_.BroadcastsInDim S800000x32 (![] : Fin 0 → Fin S800000x32.rank)
  gather_S50000x64_S800000x1_S800000x64_1_0_n_n_0_1_164_wf : GatherDims.WF S50000x64 S800000x1 S800000x64 [1] [0] [] [0] [] 1 ![1, 64]
  dot_S800000x64_S64x128_S800000x128_1_0_0_1_n_n_wf : DotDims.WF S800000x64 S64x128 S800000x128 [1] [0] [0] [1] [] []
  dot_S800000x128_S128x128_S800000x128_1_0_0_1_n_n_wf : DotDims.WF S800000x128 S128x128 S800000x128 [1] [0] [0] [1] [] []
  dot_S800000x32_S32x128_S800000x128_1_0_0_1_n_n_wf : DotDims.WF S800000x32 S32x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S800000x64_S64x32_S800000x32_1_0_0_1_n_n_wf : DotDims.WF S800000x64 S64x32 S800000x32 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf

class Facts : Prop extends Facts₀ where

variable [Facts]
-- ==== Proof.KernelRun.lean ====
/-
  The idealized kernel's run with its two results named.

  @main is four segments: host operations, the message region, host operations, the edge-update region. The contents of
  every unscoped buffer at the last boundary are `Gen.W4` (a fold through the segments); a terminating execution's final
  memory agrees with it on every such buffer. Here that is read at the two result buffers as well as at the arguments:
  the node result (written by the second host stretch) and the edge result (the second region's output array) end at
  `W4` of their buffers, the arguments as launched.
-/
import proofs.«139865_j29274497089903_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the node result and the edge result at the
    last boundary's contents of their buffers and every argument array as launched. -/
theorem run : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
       h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Results

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«139865_j29274497089903_1_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibTwoLayer.lean ====
/-
  A two-layer perceptron applied to every row of a matrix, read at an entry.

  For X : [M, K], W₁ : [K, H], b₁ : [H], W₂ : [H, D], b₂ : [D], over the extended reals,

      dense2 X W₁ b₁ W₂ b₂ [p, q] = Σ_{k < H} max( Σ_{j < K} X[p, j] · W₁[j, k] + b₁[k] , z ) · W₂[k, q] + b₂[q],

  where z is the value of the f32 word 0x00000000 (kept as the word: both spellings below clamp at that literal, so it is
  never evaluated). Two spellings of it are shown to be this function:

    * the host one — dot_general, the bias viewed as a row and repeated down the rows by two broadcast_in_dims, add,
      maximum with the splat of the scalar zero constant, and the same again without the maximum;
    * the matrix-unit one — operands narrowed to bf16 (the identity on extended reals), tpu.matmul into a zero
      accumulator, the bias cast to a row and spread by vector.broadcast, add, maximum with a splat scalar, and again.

  Row p of the result only reads row p of X (`dense2_row_congr`), which is what lets a block of rows be computed by
  itself. Generic in M, K, H, D.
-/
import proofs.«139865_j29274497089903_1_alg».proof.Proof.LibMatmulNN
import proofs.«139865_j29274497089903_1_alg».proof.Proof.LibDotNN
import proofs.«139865_j29274497089903_1_alg».proof.Proof.LibBroadcastRows
import proofs.«139865_j29274497089903_1_alg».proof.Proof.LibHostBroadcasts
import Idealize.ShloMosaic.Lib.ValueLayout
import Idealize.ShloMosaic.Lib.ValueIdx
import Idealize.ShloMosaic.PureOps.Ideal.Laws

noncomputable section

namespace Cert.TwoLayer

open Idealize.ShloMosaic Idealize.ShloMosaic.ValueIdx

variable {M K H D : ℕ}

/-- The two-layer map, entry by entry. -/
def dense2 (X : FVec Ideal ⟨2, ![M, K]⟩ .f32) (W₁ : FVec Ideal ⟨2, ![K, H]⟩ .f32) (b₁ : FVec Ideal ⟨1, ![H]⟩ .f32)
    (W₂ : FVec Ideal ⟨2, ![H, D]⟩ .f32) (b₂ : FVec Ideal ⟨1, ![D]⟩ .f32) : FVec Ideal ⟨2, ![M, D]⟩ .f32 :=
  fun i => (∑ k : Fin H, max ((∑ j : Fin K, X (ix2 (i 0) j) * W₁ (ix2 j k)) + b₁ (ix1 k))
      (Ideal.ofBits .f32 0x00000000#32) * W₂ (ix2 k (i 1))) + b₂ (ix1 (i 1))

/-- The map at (p, q), with the coordinates named. -/
theorem dense2_apply (X : FVec Ideal ⟨2, ![M, K]⟩ .f32) (W₁ : FVec Ideal ⟨2, ![K, H]⟩ .f32) (b₁ : FVec Ideal ⟨1, ![H]⟩ .f32)
    (W₂ : FVec Ideal ⟨2, ![H, D]⟩ .f32) (b₂ : FVec Ideal ⟨1, ![D]⟩ .f32) (p : Fin M) (q : Fin D) :
    dense2 X W₁ b₁ W₂ b₂ (ix2 p q)
      = (∑ k : Fin H, max ((∑ j : Fin K, X (ix2 p j) * W₁ (ix2 j k)) + b₁ (ix1 k))
          (Ideal.ofBits .f32 0x00000000#32) * W₂ (ix2 k q)) + b₂ (ix1 q) := rfl

/-- Row p of the result only reads row p of the input matrix: two input matrices (possibly with different numbers of
    rows) that agree on a row give the same output row. -/
theorem dense2_row_congr {M' : ℕ} (X : FVec Ideal ⟨2, ![M, K]⟩ .f32) (X' : FVec Ideal ⟨2, ![M', K]⟩ .f32)
    (W₁ : FVec Ideal ⟨2, ![K, H]⟩ .f32) (b₁ : FVec Ideal ⟨1, ![H]⟩ .f32)
    (W₂ : FVec Ideal ⟨2, ![H, D]⟩ .f32) (b₂ : FVec Ideal ⟨1, ![D]⟩ .f32) (p : Fin M) (p' : Fin M')
    (e : ∀ j : Fin K, X (ix2 p j) = X' (ix2 p' j)) (q : Fin D) :
    dense2 X W₁ b₁ W₂ b₂ (ix2 p q) = dense2 X' W₁ b₁ W₂ b₂ (ix2 p' q) := by
  rw [dense2_apply, dense2_apply]
  simp only [e]

/-- The host spelling is the two-layer map. -/
theorem host_form (D₁ : DotDims ⟨2, ![M, K]⟩ ⟨2, ![K, H]⟩ ⟨2, ![M, H]⟩) (hD₁ : D₁ = DotDims.plain M K H)
    (D₂ : DotDims ⟨2, ![M, H]⟩ ⟨2, ![H, D]⟩ ⟨2, ![M, D]⟩) (hD₂ : D₂ = DotDims.plain M H D)
    (prec₁ prec₂ : Option ContractPrecision)
    (hu₁ : (⟨1, ![H]⟩ : Shape).BroadcastsInDim ⟨2, ![1, H]⟩ ![1])
    (hr₁ : (⟨2, ![1, H]⟩ : Shape).BroadcastsInDim ⟨2, ![M, H]⟩ ![0, 1])
    (hz : (⟨0, ![]⟩ : Shape).BroadcastsInDim ⟨2, ![M, H]⟩ ![])
    (hu₂ : (⟨1, ![D]⟩ : Shape).BroadcastsInDim ⟨2, ![1, D]⟩ ![1])
    (hr₂ : (⟨2, ![1, D]⟩ : Shape).BroadcastsInDim ⟨2, ![M, D]⟩ ![0, 1])
    (X : FVec Ideal ⟨2, ![M, K]⟩ .f32) (W₁ : FVec Ideal ⟨2, ![K, H]⟩ .f32) (b₁ : FVec Ideal ⟨1, ![H]⟩ .f32)
    (W₂ : FVec Ideal ⟨2, ![H, D]⟩ .f32) (b₂ : FVec Ideal ⟨1, ![D]⟩ .f32) :
    addf (Host.dotGeneral D₂ prec₂
        (maximumf (addf (Host.dotGeneral D₁ prec₁ X W₁)
            (broadcastInDim ⟨2, ![M, H]⟩ ![0, 1] hr₁ (broadcastInDim ⟨2, ![1, H]⟩ ![1] hu₁ b₁)))
          (broadcastInDim ⟨2, ![M, H]⟩ ![] hz (constant (F := Ideal) ⟨0, ![]⟩ .f32 0x00000000#32))) W₂)
      (broadcastInDim ⟨2, ![M, D]⟩ ![0, 1] hr₂ (broadcastInDim ⟨2, ![1, D]⟩ ![1] hu₂ b₂))
    = dense2 X W₁ b₁ W₂ b₂ := by
  funext i
  obtain ⟨p, q, rfl⟩ : ∃ (p : Fin M) (q : Fin D), i = ix2 p q := ⟨i 0, i 1, eq_ix2 i⟩
  rw [dense2_apply, addf_apply]
  refine congrArg₂ (· + ·) ((DotNN.dotGeneral_apply D₂ hD₂ prec₂ _ W₂ p q).trans
    (Finset.sum_congr rfl fun k _ => congrArg (· * W₂ (ix2 k q)) ?_))
    ((BroadcastRows.row_apply _ hr₂ p q).trans (BroadcastRows.unit_apply b₂ hu₂ 0 q))
  rw [maximumf_apply, addf_apply]
  refine congrArg₂ max (congrArg₂ (· + ·) (DotNN.dotGeneral_apply D₁ hD₁ prec₁ X W₁ p k)
    ((BroadcastRows.row_apply _ hr₁ p k).trans (BroadcastRows.unit_apply b₁ hu₁ 0 k)))
    ((HostBroadcasts.scalar_apply ![] hz _ (ix2 p k)).trans rfl)

/-- The matrix-unit spelling is the two-layer map. -/
theorem unit_form (D₁ : DotDims ⟨2, ![M, K]⟩ ⟨2, ![K, H]⟩ ⟨2, ![M, H]⟩) (hD₁ : D₁ = DotDims.plain M K H)
    (D₂ : DotDims ⟨2, ![M, H]⟩ ⟨2, ![H, D]⟩ ⟨2, ![M, D]⟩) (hD₂ : D₂ = DotDims.plain M H D)
    (prec₁ prec₂ : Option ContractPrecision)
    (hc₁ : (⟨1, ![H]⟩ : Shape).ShapeCasts ⟨2, ![1, H]⟩) (hs₁ : (⟨2, ![1, H]⟩ : Shape).Broadcasts ⟨2, ![M, H]⟩)
    (hc₂ : (⟨1, ![D]⟩ : Shape).ShapeCasts ⟨2, ![1, D]⟩) (hs₂ : (⟨2, ![1, D]⟩ : Shape).Broadcasts ⟨2, ![M, D]⟩)
    (ht : FTy.bf16.bits < FTy.f32.bits)
    (X : FVec Ideal ⟨2, ![M, K]⟩ .f32) (W₁ : FVec Ideal ⟨2, ![K, H]⟩ .f32) (b₁ : FVec Ideal ⟨1, ![H]⟩ .f32)
    (W₂ : FVec Ideal ⟨2, ![H, D]⟩ .f32) (b₂ : FVec Ideal ⟨1, ![D]⟩ .f32) :
    addf (matmul D₂ prec₂
        (truncf .bf16 (maximumf (addf (matmul D₁ prec₁ (truncf .bf16 X ht) (truncf .bf16 W₁ ht)
              (constant (F := Ideal) ⟨2, ![M, H]⟩ .f32 0x00000000#32))
            (broadcastTo ⟨2, ![M, H]⟩ (shapeCast ⟨2, ![1, H]⟩ b₁ hc₁) hs₁))
          (broadcast ⟨2, ![M, H]⟩ (Scalar.ofBits (F := Ideal) .f32 0x00000000#32))) ht)
        (truncf .bf16 W₂ ht) (constant (F := Ideal) ⟨2, ![M, D]⟩ .f32 0x00000000#32))
      (broadcastTo ⟨2, ![M, D]⟩ (shapeCast ⟨2, ![1, D]⟩ b₂ hc₂) hs₂)
    = dense2 X W₁ b₁ W₂ b₂ := by
  funext i
  obtain ⟨p, q, rfl⟩ : ∃ (p : Fin M) (q : Fin D), i = ix2 p q := ⟨i 0, i 1, eq_ix2 i⟩
  rw [dense2_apply, addf_apply]
  refine congrArg₂ (· + ·) ((MatmulNN.matmul_zero_apply D₂ hD₂ prec₂ _ _ p q).trans
    (Finset.sum_congr rfl fun k _ => congrArg₂ (· * ·) ?_ rfl))
    ((broadcastTo_1b_ab_apply _ hs₂ p q).trans (shapeCast_a_1a_apply b₂ hc₂ 0 q))
  rw [truncf_apply, maximumf_apply, addf_apply]
  refine congrArg₂ max (congrArg₂ (· + ·) ((MatmulNN.matmul_zero_apply D₁ hD₁ prec₁ _ _ p k).trans rfl)
    ((broadcastTo_1b_ab_apply _ hs₁ p k).trans (shapeCast_a_1a_apply b₁ hc₁ 0 k))) rfl

end Cert.TwoLayer

end
-- ==== Proof.LibEdgeMessage.lean ====
/-
  The message of an edge in a two-branch message-passing layer, read at an entry.

  For X : [M, K₁] (node features of the edge's source), E : [M, K₂] (edge features), and the weights of two two-layer
  perceptrons and of one linear map, over the extended reals,

      message … [p, q] = tanh ( Σ_{k < H} ( dense2 X Wn₁ bn₁ Wn₂ bn₂ [p, k] · dense2 E We₁ be₁ We₂ be₂ [p, k] ) · Wc[k, q] + bc[q] ),

  dense2 being the two-layer perceptron of a row (LibTwoLayer). Two spellings are shown to be this function: the host
  one (dot_general, biases repeated down the rows by two broadcast_in_dims, maximum with a splat zero, multiply,
  dot_general, bias, tanh) and the matrix-unit one (operands narrowed to bf16 — the identity on extended reals —,
  tpu.matmul into zero accumulators, biases cast to rows and spread by vector.broadcast, math.tanh).

  Row p of the result only reads row p of X and of E (`message_row_congr`): a block of rows is computed by itself.
  Generic in M, K₁, K₂, H, D.
-/
import proofs.«139865_j29274497089903_1_alg».proof.Proof.LibTwoLayer

noncomputable section

namespace Cert.EdgeMessage

open Idealize.ShloMosaic Idealize.ShloMosaic.ValueIdx Cert.TwoLayer

variable {M K₁ K₂ H D : ℕ}

/-- The message map, entry by entry. -/
def message (X : FVec Ideal ⟨2, ![M, K₁]⟩ .f32) (E : FVec Ideal ⟨2, ![M, K₂]⟩ .f32)
    (Wn₁ : FVec Ideal ⟨2, ![K₁, H]⟩ .f32) (bn₁ : FVec Ideal ⟨1, ![H]⟩ .f32)
    (Wn₂ : FVec Ideal ⟨2, ![H, H]⟩ .f32) (bn₂ : FVec Ideal ⟨1, ![H]⟩ .f32)
    (We₁ : FVec Ideal ⟨2, ![K₂, H]⟩ .f32) (be₁ : FVec Ideal ⟨1, ![H]⟩ .f32)
    (We₂ : FVec Ideal ⟨2, ![H, H]⟩ .f32) (be₂ : FVec Ideal ⟨1, ![H]⟩ .f32)
    (Wc : FVec Ideal ⟨2, ![H, D]⟩ .f32) (bc : FVec Ideal ⟨1, ![D]⟩ .f32) : FVec Ideal ⟨2, ![M, D]⟩ .f32 :=
  fun i => Ideal.tanh ((∑ k : Fin H, (dense2 X Wn₁ bn₁ Wn₂ bn₂ (ix2 (i 0) k) * dense2 E We₁ be₁ We₂ be₂ (ix2 (i 0) k))
      * Wc (ix2 k (i 1))) + bc (ix1 (i 1)))

/-- The map at (p, q), with the coordinates named. -/
theorem message_apply (X : FVec Ideal ⟨2, ![M, K₁]⟩ .f32) (E : FVec Ideal ⟨2, ![M, K₂]⟩ .f32)
    (Wn₁ : FVec Ideal ⟨2, ![K₁, H]⟩ .f32) (bn₁ : FVec Ideal ⟨1, ![H]⟩ .f32)
    (Wn₂ : FVec Ideal ⟨2, ![H, H]⟩ .f32) (bn₂ : FVec Ideal ⟨1, ![H]⟩ .f32)
    (We₁ : FVec Ideal ⟨2, ![K₂, H]⟩ .f32) (be₁ : FVec Ideal ⟨1, ![H]⟩ .f32)
    (We₂ : FVec Ideal ⟨2, ![H, H]⟩ .f32) (be₂ : FVec Ideal ⟨1, ![H]⟩ .f32)
    (Wc : FVec Ideal ⟨2, ![H, D]⟩ .f32) (bc : FVec Ideal ⟨1, ![D]⟩ .f32) (p : Fin M) (q : Fin D) :
    message X E Wn₁ bn₁ Wn₂ bn₂ We₁ be₁ We₂ be₂ Wc bc (ix2 p q)
      = Ideal.tanh ((∑ k : Fin H, (dense2 X Wn₁ bn₁ Wn₂ bn₂ (ix2 p k) * dense2 E We₁ be₁ We₂ be₂ (ix2 p k))
          * Wc (ix2 k q)) + bc (ix1 q)) := rfl

/-- Row p of the result only reads row p of the two input matrices: inputs (possibly with different numbers of rows)
    that agree on a row give the same output row. -/
theorem message_row_congr {M' : ℕ} (X : FVec Ideal ⟨2, ![M, K₁]⟩ .f32) (X' : FVec Ideal ⟨2, ![M', K₁]⟩ .f32)
    (E : FVec Ideal ⟨2, ![M, K₂]⟩ .f32) (E' : FVec Ideal ⟨2, ![M', K₂]⟩ .f32)
    (Wn₁ : FVec Ideal ⟨2, ![K₁, H]⟩ .f32) (bn₁ : FVec Ideal ⟨1, ![H]⟩ .f32)
    (Wn₂ : FVec Ideal ⟨2, ![H, H]⟩ .f32) (bn₂ : FVec Ideal ⟨1, ![H]⟩ .f32)
    (We₁ : FVec Ideal ⟨2, ![K₂, H]⟩ .f32) (be₁ : FVec Ideal ⟨1, ![H]⟩ .f32)
    (We₂ : FVec Ideal ⟨2, ![H, H]⟩ .f32) (be₂ : FVec Ideal ⟨1, ![H]⟩ .f32)
    (Wc : FVec Ideal ⟨2, ![H, D]⟩ .f32) (bc : FVec Ideal ⟨1, ![D]⟩ .f32) (p : Fin M) (p' : Fin M')
    (eX : ∀ j : Fin K₁, X (ix2 p j) = X' (ix2 p' j)) (eE : ∀ j : Fin K₂, E (ix2 p j) = E' (ix2 p' j)) (q : Fin D) :
    message X E Wn₁ bn₁ Wn₂ bn₂ We₁ be₁ We₂ be₂ Wc bc (ix2 p q)
      = message X' E' Wn₁ bn₁ Wn₂ bn₂ We₁ be₁ We₂ be₂ Wc bc (ix2 p' q) := by
  rw [message_apply, message_apply]
  refine congrArg (fun s => Ideal.tanh (s + bc (ix1 q))) (Finset.sum_congr rfl fun k _ => ?_)
  rw [dense2_row_congr X X' Wn₁ bn₁ Wn₂ bn₂ p p' eX k, dense2_row_congr E E' We₁ be₁ We₂ be₂ p p' eE k]

/-- The host spelling is the message map. -/
theorem host_form (D₁ : DotDims ⟨2, ![M, K₁]⟩ ⟨2, ![K₁, H]⟩ ⟨2, ![M, H]⟩) (hD₁ : D₁ = DotDims.plain M K₁ H)
    (D₂ : DotDims ⟨2, ![M, H]⟩ ⟨2, ![H, H]⟩ ⟨2, ![M, H]⟩) (hD₂ : D₂ = DotDims.plain M H H)
    (D₃ : DotDims ⟨2, ![M, K₂]⟩ ⟨2, ![K₂, H]⟩ ⟨2, ![M, H]⟩) (hD₃ : D₃ = DotDims.plain M K₂ H)
    (D₅ : DotDims ⟨2, ![M, H]⟩ ⟨2, ![H, D]⟩ ⟨2, ![M, D]⟩) (hD₅ : D₅ = DotDims.plain M H D)
    (prec : Option ContractPrecision)
    (hu : (⟨1, ![H]⟩ : Shape).BroadcastsInDim ⟨2, ![1, H]⟩ ![1])
    (hr : (⟨2, ![1, H]⟩ : Shape).BroadcastsInDim ⟨2, ![M, H]⟩ ![0, 1])
    (hz : (⟨0, ![]⟩ : Shape).BroadcastsInDim ⟨2, ![M, H]⟩ ![])
    (hu' : (⟨1, ![D]⟩ : Shape).BroadcastsInDim ⟨2, ![1, D]⟩ ![1])
    (hr' : (⟨2, ![1, D]⟩ : Shape).BroadcastsInDim ⟨2, ![M, D]⟩ ![0, 1])
    (X : FVec Ideal ⟨2, ![M, K₁]⟩ .f32) (E : FVec Ideal ⟨2, ![M, K₂]⟩ .f32)
    (Wn₁ : FVec Ideal ⟨2, ![K₁, H]⟩ .f32) (bn₁ : FVec Ideal ⟨1, ![H]⟩ .f32)
    (Wn₂ : FVec Ideal ⟨2, ![H, H]⟩ .f32) (bn₂ : FVec Ideal ⟨1, ![H]⟩ .f32)
    (We₁ : FVec Ideal ⟨2, ![K₂, H]⟩ .f32) (be₁ : FVec Ideal ⟨1, ![H]⟩ .f32)
    (We₂ : FVec Ideal ⟨2, ![H, H]⟩ .f32) (be₂ : FVec Ideal ⟨1, ![H]⟩ .f32)
    (Wc : FVec Ideal ⟨2, ![H, D]⟩ .f32) (bc : FVec Ideal ⟨1, ![D]⟩ .f32) :
    Host.tanh (addf (Host.dotGeneral D₅ prec (mulf
        (addf (Host.dotGeneral D₂ prec
            (maximumf (addf (Host.dotGeneral D₁ prec X Wn₁)
                (broadcastInDim ⟨2, ![M, H]⟩ ![0, 1] hr (broadcastInDim ⟨2, ![1, H]⟩ ![1] hu bn₁)))
              (broadcastInDim ⟨2, ![M, H]⟩ ![] hz (constant (F := Ideal) ⟨0, ![]⟩ .f32 0x00000000#32))) Wn₂)
          (broadcastInDim ⟨2, ![M, H]⟩ ![0, 1] hr (broadcastInDim ⟨2, ![1, H]⟩ ![1] hu bn₂)))
        (addf (Host.dotGeneral D₂ prec
            (maximumf (addf (Host.dotGeneral D₃ prec E We₁)
                (broadcastInDim ⟨2, ![M, H]⟩ ![0, 1] hr (broadcastInDim ⟨2, ![1, H]⟩ ![1] hu be₁)))
              (broadcastInDim ⟨2, ![M, H]⟩ ![] hz (constant (F := Ideal) ⟨0, ![]⟩ .f32 0x00000000#32))) We₂)
          (broadcastInDim ⟨2, ![M, H]⟩ ![0, 1] hr (broadcastInDim ⟨2, ![1, H]⟩ ![1] hu be₂)))) Wc)
      (broadcastInDim ⟨2, ![M, D]⟩ ![0, 1] hr' (broadcastInDim ⟨2, ![1, D]⟩ ![1] hu' bc)))
    = message X E Wn₁ bn₁ Wn₂ bn₂ We₁ be₁ We₂ be₂ Wc bc := by
  rw [TwoLayer.host_form D₁ hD₁ D₂ hD₂ prec prec hu hr hz hu hr X Wn₁ bn₁ Wn₂ bn₂,
    TwoLayer.host_form D₃ hD₃ D₂ hD₂ prec prec hu hr hz hu hr E We₁ be₁ We₂ be₂]
  funext i
  obtain ⟨p, q, rfl⟩ : ∃ (p : Fin M) (q : Fin D), i = ix2 p q := ⟨i 0, i 1, eq_ix2 i⟩
  rw [message_apply]
  refine congrArg Ideal.tanh ((addf_apply _ _ _).trans (congrArg₂ (· + ·) ((DotNN.dotGeneral_apply D₅ hD₅ prec _ Wc p q).trans
    (Finset.sum_congr rfl fun k _ => congrArg (· * Wc (ix2 k q)) (mulf_apply _ _ _)))
    ((BroadcastRows.row_apply _ hr' p q).trans (BroadcastRows.unit_apply bc hu' 0 q))))

/-- The matrix-unit spelling is the message map. -/
theorem unit_form (D₁ : DotDims ⟨2, ![M, K₁]⟩ ⟨2, ![K₁, H]⟩ ⟨2, ![M, H]⟩) (hD₁ : D₁ = DotDims.plain M K₁ H)
    (D₂ : DotDims ⟨2, ![M, H]⟩ ⟨2, ![H, H]⟩ ⟨2, ![M, H]⟩) (hD₂ : D₂ = DotDims.plain M H H)
    (D₃ : DotDims ⟨2, ![M, K₂]⟩ ⟨2, ![K₂, H]⟩ ⟨2, ![M, H]⟩) (hD₃ : D₃ = DotDims.plain M K₂ H)
    (D₅ : DotDims ⟨2, ![M, H]⟩ ⟨2, ![H, D]⟩ ⟨2, ![M, D]⟩) (hD₅ : D₅ = DotDims.plain M H D)
    (prec : Option ContractPrecision)
    (hc : (⟨1, ![H]⟩ : Shape).ShapeCasts ⟨2, ![1, H]⟩) (hs : (⟨2, ![1, H]⟩ : Shape).Broadcasts ⟨2, ![M, H]⟩)
    (hc' : (⟨1, ![D]⟩ : Shape).ShapeCasts ⟨2, ![1, D]⟩) (hs' : (⟨2, ![1, D]⟩ : Shape).Broadcasts ⟨2, ![M, D]⟩)
    (ht : FTy.bf16.bits < FTy.f32.bits)
    (X : FVec Ideal ⟨2, ![M, K₁]⟩ .f32) (E : FVec Ideal ⟨2, ![M, K₂]⟩ .f32)
    (Wn₁ : FVec Ideal ⟨2, ![K₁, H]⟩ .f32) (bn₁ : FVec Ideal ⟨1, ![H]⟩ .f32)
    (Wn₂ : FVec Ideal ⟨2, ![H, H]⟩ .f32) (bn₂ : FVec Ideal ⟨1, ![H]⟩ .f32)
    (We₁ : FVec Ideal ⟨2, ![K₂, H]⟩ .f32) (be₁ : FVec Ideal ⟨1, ![H]⟩ .f32)
    (We₂ : FVec Ideal ⟨2, ![H, H]⟩ .f32) (be₂ : FVec Ideal ⟨1, ![H]⟩ .f32)
    (Wc : FVec Ideal ⟨2, ![H, D]⟩ .f32) (bc : FVec Ideal ⟨1, ![D]⟩ .f32) :
    tanh (addf (matmul D₅ prec (truncf .bf16 (mulf
        (addf (matmul D₂ prec
            (truncf .bf16 (maximumf (addf (matmul D₁ prec (truncf .bf16 X ht) (truncf .bf16 Wn₁ ht)
                  (constant (F := Ideal) ⟨2, ![M, H]⟩ .f32 0x00000000#32))
                (broadcastTo ⟨2, ![M, H]⟩ (shapeCast ⟨2, ![1, H]⟩ bn₁ hc) hs))
              (broadcast ⟨2, ![M, H]⟩ (Scalar.ofBits (F := Ideal) .f32 0x00000000#32))) ht)
            (truncf .bf16 Wn₂ ht) (constant (F := Ideal) ⟨2, ![M, H]⟩ .f32 0x00000000#32))
          (broadcastTo ⟨2, ![M, H]⟩ (shapeCast ⟨2, ![1, H]⟩ bn₂ hc) hs))
        (addf (matmul D₂ prec
            (truncf .bf16 (maximumf (addf (matmul D₃ prec (truncf .bf16 E ht) (truncf .bf16 We₁ ht)
                  (constant (F := Ideal) ⟨2, ![M, H]⟩ .f32 0x00000000#32))
                (broadcastTo ⟨2, ![M, H]⟩ (shapeCast ⟨2, ![1, H]⟩ be₁ hc) hs))
              (broadcast ⟨2, ![M, H]⟩ (Scalar.ofBits (F := Ideal) .f32 0x00000000#32))) ht)
            (truncf .bf16 We₂ ht) (constant (F := Ideal) ⟨2, ![M, H]⟩ .f32 0x00000000#32))
          (broadcastTo ⟨2, ![M, H]⟩ (shapeCast ⟨2, ![1, H]⟩ be₂ hc) hs))) ht)
        (truncf .bf16 Wc ht) (constant (F := Ideal) ⟨2, ![M, D]⟩ .f32 0x00000000#32))
      (broadcastTo ⟨2, ![M, D]⟩ (shapeCast ⟨2, ![1, D]⟩ bc hc') hs'))
    = message X E Wn₁ bn₁ Wn₂ bn₂ We₁ be₁ We₂ be₂ Wc bc := by
  rw [TwoLayer.unit_form D₁ hD₁ D₂ hD₂ prec prec hc hs hc hs ht X Wn₁ bn₁ Wn₂ bn₂,
    TwoLayer.unit_form D₃ hD₃ D₂ hD₂ prec prec hc hs hc hs ht E We₁ be₁ We₂ be₂]
  funext i
  obtain ⟨p, q, rfl⟩ : ∃ (p : Fin M) (q : Fin D), i = ix2 p q := ⟨i 0, i 1, eq_ix2 i⟩
  rw [message_apply]
  refine congrArg Ideal.tanh ((addf_apply _ _ _).trans (congrArg₂ (· + ·) ((MatmulNN.matmul_zero_apply D₅ hD₅ prec _ _ p q).trans
    (Finset.sum_congr rfl fun k _ => congrArg₂ (· * ·) ((truncf_apply _ ht _).trans (mulf_apply _ _ _)) rfl))
    ((broadcastTo_1b_ab_apply _ hs' p q).trans (shapeCast_a_1a_apply bc hc' 0 q))))

end Cert.EdgeMessage

end
-- ==== Proof.MessageRegion.lean ====
/-
  The first region's output array: the message of every edge.

  The region runs 250 grid points; point t reads rows 3200·t … 3200·t + 3199 of the gathered node features and of the
  edge features, the whole of each weight matrix and of each bias row, and writes rows 3200·t … of the output. The body's
  result block is the message map (LibEdgeMessage) of its input blocks; since row p of a message only reads row p of the
  two row-indexed inputs, the block written by point t is rows 3200·t … of the message map of the WHOLE arrays; the 250
  blocks tile the array, so the array ends holding that map. The bias rows are stated as the [1, n] casts of bias vectors
  (what the host reshapes before the region leave there).
-/
import proofs.«139865_j29274497089903_1_alg».proof.Proof.Gen.KernelIdeal.Frame
import proofs.«139865_j29274497089903_1_alg».proof.Proof.LibEdgeMessage
import Idealize.ShloMosaic.Lib.Pipeline.Value
import Idealize.ShloMosaic.Lib.ValueLayout

set_option maxRecDepth 16384

noncomputable section

namespace Cert.KernelIdeal.MessageRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl

/-- The body's result block is the message map of its input blocks, the bias rows being casts of bias vectors. -/
theorem block_message (x0 : Vec Ideal S3200x64 .f32) (x1 : Vec Ideal S3200x32 .f32) (x2 : Vec Ideal S64x128 .f32) (x3 : Vec Ideal S1x128 .f32) (x4 : Vec Ideal S128x128 .f32) (x5 : Vec Ideal S1x128 .f32) (x6 : Vec Ideal S32x128 .f32) (x7 : Vec Ideal S1x128 .f32) (x8 : Vec Ideal S128x128 .f32) (x9 : Vec Ideal S1x128 .f32) (x10 : Vec Ideal S128x64 .f32) (x11 : Vec Ideal S1x64 .f32)
    (b1 b2 b3 b4 : FVec Ideal S128 .f32) (b5 : FVec Ideal S64 .f32)
    (h3 : x3 = shapeCast S1x128 b1 shapeCasts_S128_S1x128) (h5 : x5 = shapeCast S1x128 b2 shapeCasts_S128_S1x128)
    (h7 : x7 = shapeCast S1x128 b3 shapeCasts_S128_S1x128) (h9 : x9 = shapeCast S1x128 b4 shapeCasts_S128_S1x128)
    (h11 : x11 = shapeCast S1x64 b5 shapeCasts_S64_S1x64) :
    out0_12 (F := Ideal) x0 x1 x2 x3 x4 x5 x6 x7 x8 x9 x10 x11
      = EdgeMessage.message x0 x1 x2 b1 x4 b2 x6 b3 x8 b4 x10 b5 := by
  subst h3 h5 h7 h9 h11
  unfold out0_12
  rw [View.canon_unit_zero origin2]
  simp only [View.ld_unit_zero (S := S3200x64) origin2, View.ld_unit_zero (S := S3200x32) origin2,
    View.ld_unit_zero (S := S64x128) origin2, View.ld_unit_zero (S := S128x128) origin2,
    View.ld_unit_zero (S := S32x128) origin2, View.ld_unit_zero (S := S128x64) origin2,
    View.ld_unit_zero (S := S1x128) origin2, View.ld_unit_zero (S := S1x64) origin2]
  unfold k0_pay1 k0_pay2 k0_pay3 k0_pay4 k0_pay5 k0_pay6 k0_pay7 k0_pay8 k0_pay9 k0_pay10
  simp only [shapeCast_self]
  exact EdgeMessage.unit_form _ rfl _ rfl _ rfl _ rfl none shapeCasts_S128_S1x128 broadcasts_S1x128_S3200x128
    shapeCasts_S64_S1x64 broadcasts_S1x64_S3200x64 bitsLt_bf16_f32 x0 x1 x2 b1 x4 b2 x6 b3 x8 b4 x10 b5

section Array

variable (V : (c : Dev nD) → (b : Ref sig .tc) → Buf (Elt Ideal) ((c : Thread nD τ).loc b)) (c : Dev nD)

/-- The printed index maps, decided over the 250 grid points: the two row-blocked inputs and the output are at block t
    of the rows and block 0 of the columns; every other window stays at the origin. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0 :=
  (by decide +kernel : ∀ t : Fin grid0.N, _)

theorem point_lt (t : Fin cfg0.N) : t.val < 250 := t.isLt

/-- Row p of the first input's block at point t is row 3200·t + p of the gathered node features. -/
theorem rows0 (t : Fin cfg0.N) (p : Fin 3200) (j : Fin 64) (h : 3200 * t.val + p.val < 800000) :
    iblk0 V c 0 t (ix2 p j) = (V c main_v6 : S800000x64.Idx → EReal) (ix2 ⟨3200 * t.val + p.val, h⟩ j) := by
  show V c main_v6 (((cfg0.win 0).blk t).view.emb (ix2 p j)) = _
  refine congrArg (V c main_v6) (funext fun a => Fin.ext ?_)
  obtain ⟨e0, e1, -, -, -, -⟩ := index_facts t
  match a with
  | ⟨0, _⟩ => show win0_0.index t (0 : Fin 2) * 3200 + 1 * p.val = 3200 * t.val + p.val; omega
  | ⟨1, _⟩ => show win0_0.index t (1 : Fin 2) * 64 + 1 * j.val = j.val; omega

/-- Row p of the second input's block at point t is row 3200·t + p of the edge features. -/
theorem rows1 (t : Fin cfg0.N) (p : Fin 3200) (j : Fin 32) (h : 3200 * t.val + p.val < 800000) :
    iblk0 V c 1 t (ix2 p j) = (V c main_arg1 : S800000x32.Idx → EReal) (ix2 ⟨3200 * t.val + p.val, h⟩ j) := by
  show V c main_arg1 (((cfg0.win 1).blk t).view.emb (ix2 p j)) = _
  refine congrArg (V c main_arg1) (funext fun a => Fin.ext ?_)
  obtain ⟨-, -, e0, e1, -, -⟩ := index_facts t
  match a with
  | ⟨0, _⟩ => show win0_1.index t (0 : Fin 2) * 3200 + 1 * p.val = 3200 * t.val + p.val; omega
  | ⟨1, _⟩ => show win0_1.index t (1 : Fin 2) * 32 + 1 * j.val = j.val; omega

/-- Window 2 stays at the origin, and is its whole array at every point. -/
theorem stays2 : ∀ t : Fin cfg0.N, win0_2.index t (0 : Fin 2) = 0 ∧ win0_2.index t (1 : Fin 2) = 0 :=
  (by decide +kernel : ∀ t : Fin grid0.N, _)
theorem whole2 (t : Fin cfg0.N) : (iblk0 V c 2 t : S64x128.Idx → EReal) = V c main_arg2 := by
  funext y
  show V c main_arg2 (((cfg0.win 2).blk t).view.emb y) = V c main_arg2 y
  refine congrArg (V c main_arg2) (funext fun a => Fin.ext ?_)
  obtain ⟨e0, e1⟩ := stays2 t
  match a with
  | ⟨0, _⟩ => show win0_2.index t (0 : Fin 2) * 64 + 1 * (y 0).val = (y 0).val; omega
  | ⟨1, _⟩ => show win0_2.index t (1 : Fin 2) * 128 + 1 * (y 1).val = (y 1).val; omega

/-- Window 3 stays at the origin, and is its whole array at every point. -/
theorem stays3 : ∀ t : Fin cfg0.N, win0_3.index t (0 : Fin 2) = 0 ∧ win0_3.index t (1 : Fin 2) = 0 :=
  (by decide +kernel : ∀ t : Fin grid0.N, _)
theorem whole3 (t : Fin cfg0.N) : (iblk0 V c 3 t : S1x128.Idx → EReal) = V c main_v7 := by
  funext y
  show V c main_v7 (((cfg0.win 3).blk t).view.emb y) = V c main_v7 y
  refine congrArg (V c main_v7) (funext fun a => Fin.ext ?_)
  obtain ⟨e0, e1⟩ := stays3 t
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4 stays at the origin, and is its whole array at every point. -/
theorem stays4 : ∀ t : Fin cfg0.N, win0_4.index t (0 : Fin 2) = 0 ∧ win0_4.index t (1 : Fin 2) = 0 :=
  (by decide +kernel : ∀ t : Fin grid0.N, _)
theorem whole4 (t : Fin cfg0.N) : (iblk0 V c 4 t : S128x128.Idx → EReal) = V c main_arg4 := by
  funext y
  show V c main_arg4 (((cfg0.win 4).blk t).view.emb y) = V c main_arg4 y
  refine congrArg (V c main_arg4) (funext fun a => Fin.ext ?_)
  obtain ⟨e0, e1⟩ := stays4 t
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5 stays at the origin, and is its whole array at every point. -/
theorem stays5 : ∀ t : Fin cfg0.N, win0_5.index t (0 : Fin 2) = 0 ∧ win0_5.index t (1 : Fin 2) = 0 :=
  (by decide +kernel : ∀ t : Fin grid0.N, _)
theorem whole5 (t : Fin cfg0.N) : (iblk0 V c 5 t : S1x128.Idx → EReal) = V c main_v8 := by
  funext y
  show V c main_v8 (((cfg0.win 5).blk t).view.emb y) = V c main_v8 y
  refine congrArg (V c main_v8) (funext fun a => Fin.ext ?_)
  obtain ⟨e0, e1⟩ := stays5 t
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6 stays at the origin, and is its whole array at every point. -/
theorem stays6 : ∀ t : Fin cfg0.N, win0_6.index t (0 : Fin 2) = 0 ∧ win0_6.index t (1 : Fin 2) = 0 :=
  (by decide +kernel : ∀ t : Fin grid0.N, _)
theorem whole6 (t : Fin cfg0.N) : (iblk0 V c 6 t : S32x128.Idx → EReal) = V c main_arg6 := by
  funext y
  show V c main_arg6 (((cfg0.win 6).blk t).view.emb y) = V c main_arg6 y
  refine congrArg (V c main_arg6) (funext fun a => Fin.ext ?_)
  obtain ⟨e0, e1⟩ := stays6 t
  match a with
  | ⟨0, _⟩ => show win0_6.index t (0 : Fin 2) * 32 + 1 * (y 0).val = (y 0).val; omega
  | ⟨1, _⟩ => show win0_6.index t (1 : Fin 2) * 128 + 1 * (y 1).val = (y 1).val; omega

/-- Window 7 stays at the origin, and is its whole array at every point. -/
theorem stays7 : ∀ t : Fin cfg0.N, win0_7.index t (0 : Fin 2) = 0 ∧ win0_7.index t (1 : Fin 2) = 0 :=
  (by decide +kernel : ∀ t : Fin grid0.N, _)
theorem whole7 (t : Fin cfg0.N) : (iblk0 V c 7 t : S1x128.Idx → EReal) = V c main_v9 := by
  funext y
  show V c main_v9 (((cfg0.win 7).blk t).view.emb y) = V c main_v9 y
  refine congrArg (V c main_v9) (funext fun a => Fin.ext ?_)
  obtain ⟨e0, e1⟩ := stays7 t
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8 stays at the origin, and is its whole array at every point. -/
theorem stays8 : ∀ t : Fin cfg0.N, win0_8.index t (0 : Fin 2) = 0 ∧ win0_8.index t (1 : Fin 2) = 0 :=
  (by decide +kernel : ∀ t : Fin grid0.N, _)
theorem whole8 (t : Fin cfg0.N) : (iblk0 V c 8 t : S128x128.Idx → EReal) = V c main_arg8 := by
  funext y
  show V c main_arg8 (((cfg0.win 8).blk t).view.emb y) = V c main_arg8 y
  refine congrArg (V c main_arg8) (funext fun a => Fin.ext ?_)
  obtain ⟨e0, e1⟩ := stays8 t
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 9 stays at the origin, and is its whole array at every point. -/
theorem stays9 : ∀ t : Fin cfg0.N, win0_9.index t (0 : Fin 2) = 0 ∧ win0_9.index t (1 : Fin 2) = 0 :=
  (by decide +kernel : ∀ t : Fin grid0.N, _)
theorem whole9 (t : Fin cfg0.N) : (iblk0 V c 9 t : S1x128.Idx → EReal) = V c main_v10 := by
  funext y
  show V c main_v10 (((cfg0.win 9).blk t).view.emb y) = V c main_v10 y
  refine congrArg (V c main_v10) (funext fun a => Fin.ext ?_)
  obtain ⟨e0, e1⟩ := stays9 t
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Window 10 stays at the origin, and is its whole array at every point. -/
theorem stays10 : ∀ t : Fin cfg0.N, win0_10.index t (0 : Fin 2) = 0 ∧ win0_10.index t (1 : Fin 2) = 0 :=
  (by decide +kernel : ∀ t : Fin grid0.N, _)
theorem whole10 (t : Fin cfg0.N) : (iblk0 V c 10 t : S128x64.Idx → EReal) = V c main_arg10 := by
  funext y
  show V c main_arg10 (((cfg0.win 10).blk t).view.emb y) = V c main_arg10 y
  refine congrArg (V c main_arg10) (funext fun a => Fin.ext ?_)
  obtain ⟨e0, e1⟩ := stays10 t
  match a with
  | ⟨0, _⟩ => show win0_10.index t (0 : Fin 2) * 128 + 1 * (y 0).val = (y 0).val; omega
  | ⟨1, _⟩ => show win0_10.index t (1 : Fin 2) * 64 + 1 * (y 1).val = (y 1).val; omega

/-- Window 11 stays at the origin, and is its whole array at every point. -/
theorem stays11 : ∀ t : Fin cfg0.N, win0_11.index t (0 : Fin 2) = 0 ∧ win0_11.index t (1 : Fin 2) = 0 :=
  (by decide +kernel : ∀ t : Fin grid0.N, _)
theorem whole11 (t : Fin cfg0.N) : (iblk0 V c 11 t : S1x64.Idx → EReal) = V c main_v11 := by
  funext y
  show V c main_v11 (((cfg0.win 11).blk t).view.emb y) = V c main_v11 y
  refine congrArg (V c main_v11) (funext fun a => Fin.ext ?_)
  obtain ⟨e0, e1⟩ := stays11 t
  match a with
  | ⟨0, _⟩ => show win0_11.index t (0 : Fin 2) * 1 + 1 * (y 0).val = (y 0).val; omega
  | ⟨1, _⟩ => show win0_11.index t (1 : Fin 2) * 64 + 1 * (y 1).val = (y 1).val; omega

/-- Entry (p, q) of the output's block at point t is entry (3200·t + p, q) of the array. -/
theorem out_emb (t : Fin cfg0.N) (p : Fin 3200) (q : Fin 64) (h : 3200 * t.val + p.val < 800000) :
    ((cfg0.win 12).blk t).view.emb (ix2 p q) = (ix2 ⟨3200 * t.val + p.val, h⟩ q : S800000x64.Idx) := by
  refine funext fun a => Fin.ext ?_
  obtain ⟨-, -, -, -, e0, e1⟩ := index_facts t
  match a with
  | ⟨0, _⟩ => show win0_12.index t (0 : Fin 2) * 3200 + 1 * p.val = 3200 * t.val + p.val; omega
  | ⟨1, _⟩ => show win0_12.index t (1 : Fin 2) * 64 + 1 * q.val = q.val; omega

variable (b1 b2 b3 b4 : FVec Ideal S128 .f32) (b5 : FVec Ideal S64 .f32)
  (hb1 : (V c main_v7 : S1x128.Idx → EReal) = shapeCast S1x128 b1 shapeCasts_S128_S1x128)
  (hb2 : (V c main_v8 : S1x128.Idx → EReal) = shapeCast S1x128 b2 shapeCasts_S128_S1x128)
  (hb3 : (V c main_v9 : S1x128.Idx → EReal) = shapeCast S1x128 b3 shapeCasts_S128_S1x128)
  (hb4 : (V c main_v10 : S1x128.Idx → EReal) = shapeCast S1x128 b4 shapeCasts_S128_S1x128)
  (hb5 : (V c main_v11 : S1x64.Idx → EReal) = shapeCast S1x64 b5 shapeCasts_S64_S1x64)

include hb1 hb2 hb3 hb4 hb5 in
/-- What point t writes back is block t of the message map of the whole arrays. -/
theorem flushed (t : Fin cfg0.N) :
    (dat0 V c).flushed 12 t = ((cfg0.win 12).blk t).view.read (Elt Ideal)
      (EdgeMessage.message (V c main_v6 : S800000x64.Idx → EReal) (V c main_arg1 : S800000x32.Idx → EReal) (V c main_arg2 : S64x128.Idx → EReal) b1
        (V c main_arg4 : S128x128.Idx → EReal) b2 (V c main_arg6 : S32x128.Idx → EReal) b3 (V c main_arg8 : S128x128.Idx → EReal) b4 (V c main_arg10 : S128x64.Idx → EReal) b5) := by
  show (cfg0.win 12).cut (grid0.coords t) ((dat0 V c).after 12 t) = _
  rw [after0_12]
  funext j
  obtain ⟨p, q, rfl⟩ : ∃ (p : Fin 3200) (q : Fin 64), j = ix2 p q := ⟨j 0, j 1, eq_ix2 j⟩
  have hrow : 3200 * t.val + p.val < 800000 := by have := point_lt t; have := p.isLt; omega
  show out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (ix2 p q)
    = EdgeMessage.message (V c main_v6 : S800000x64.Idx → EReal) (V c main_arg1 : S800000x32.Idx → EReal) (V c main_arg2 : S64x128.Idx → EReal) b1
        (V c main_arg4 : S128x128.Idx → EReal) b2 (V c main_arg6 : S32x128.Idx → EReal) b3 (V c main_arg8 : S128x128.Idx → EReal) b4 (V c main_arg10 : S128x64.Idx → EReal) b5
        (((cfg0.win 12).blk t).view.emb (ix2 p q))
  rw [out_emb t p q hrow]
  refine (congrFun (block_message (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    b1 b2 b3 b4 b5 ((whole3 V c t).trans hb1) ((whole5 V c t).trans hb2) ((whole7 V c t).trans hb3) ((whole9 V c t).trans hb4) ((whole11 V c t).trans hb5)) (ix2 p q)).trans ?_
  rw [whole2 V c t, whole4 V c t, whole6 V c t, whole8 V c t, whole10 V c t]
  exact (EdgeMessage.message_row_congr (V c main_v6 : S800000x64.Idx → EReal) (iblk0 V c 0 t) (V c main_arg1 : S800000x32.Idx → EReal) (iblk0 V c 1 t)
    _ b1 _ b2 _ b3 _ b4 _ b5 ⟨3200 * t.val + p.val, hrow⟩ p (fun j => (rows0 V c t p j hrow).symm) (fun j => (rows1 V c t p j hrow).symm) q).symm

/-- An index of the array is in point t's block iff each coordinate is in the block's range on its axis. -/
theorem mem_block (t : Fin cfg0.N) (i : S800000x64.Idx) :
    i ∈ ((cfg0.win 12).blk t).view.set ↔ ∀ a : Fin 2, win0_12.index t a * S3200x64.size a ≤ (i a).val ∧ (i a).val < win0_12.index t a * S3200x64.size a + S3200x64.size a := by
  show i ∈ ((View.whole main_v12).slice (win0_12.rect t)).set ↔ _
  rw [View.set_slice_whole, Rect.mem_set_unit]
  exact Iff.rfl

/-- The 250 blocks tile the array: row r is in the block of point r / 3200. -/
theorem covered (i : S800000x64.Idx) :
    ∃ t : Fin cfg0.N, (cfg0.win 12).flush t = true ∧ i ∈ ((cfg0.win 12).blk t).view.set := by
  have hi0 : (i 0).val < 800000 := (i 0).isLt
  have hi1 : (i 1).val < 64 := (i 1).isLt
  have hq : (i 0).val / 3200 < 250 := by omega
  refine ⟨⟨(i 0).val / 3200, hq⟩, flush0_12 _, ?_⟩
  rw [mem_block]
  obtain ⟨-, -, -, -, e0, e1⟩ := index_facts ⟨(i 0).val / 3200, hq⟩
  have e0' : win0_12.index ⟨(i 0).val / 3200, hq⟩ (0 : Fin 2) = (i 0).val / 3200 := e0
  intro a
  match a with
  | ⟨0, _⟩ => show win0_12.index ⟨(i 0).val / 3200, hq⟩ (0 : Fin 2) * 3200 ≤ (i 0).val ∧ (i 0).val < win0_12.index ⟨(i 0).val / 3200, hq⟩ (0 : Fin 2) * 3200 + 3200; omega
  | ⟨1, _⟩ => show win0_12.index ⟨(i 0).val / 3200, hq⟩ (1 : Fin 2) * 64 ≤ (i 1).val ∧ (i 1).val < win0_12.index ⟨(i 0).val / 3200, hq⟩ (1 : Fin 2) * 64 + 64; omega

include hb1 hb2 hb3 hb4 hb5 in
/-- The output array after the region is the message map of the region's input arrays. -/
theorem array :
    (dat0 V c).arrAt 12 cfg0.N
      = EdgeMessage.message (V c main_v6 : S800000x64.Idx → EReal) (V c main_arg1 : S800000x32.Idx → EReal) (V c main_arg2 : S64x128.Idx → EReal) b1
        (V c main_arg4 : S128x128.Idx → EReal) b2 (V c main_arg6 : S32x128.Idx → EReal) b3 (V c main_arg8 : S128x128.Idx → EReal) b4 (V c main_arg10 : S128x64.Idx → EReal) b5 :=
  (dat0 V c).arrAt_eq_of_cover 12 _ (fun t _ => flushed V c b1 b2 b3 b4 b5 hb1 hb2 hb3 hb4 hb5 t) covered

end Array

end Cert.KernelIdeal.MessageRegion

end
-- ==== Proof.LibEdgeUpdate.lean ====
/-
  The update of an edge's features from the features of its two end nodes, read at an entry.

  For Hs, Hd : [M, K] (the features of the source and of the destination node of each edge), E : [M, D] (the edge's
  own features), W : [K, D], and two f32 words w₁, w₂ read as extended reals c₁, c₂,

      update w₁ w₂ Hs Hd E W [p, q] = c₁ · E[p, q] + c₂ · Σ_{k < K} ( Hs[p, k] · Hd[p, k] ) · W[k, q].

  The two words are kept as words: both spellings below use the same literals, so they are never evaluated. The host
  spelling (splat constants by broadcast_in_dim, multiply, dot_general, multiply, add) and the matrix-unit spelling (splat
  scalars, the product narrowed to bf16 — the identity on extended reals —, tpu.matmul into a zero accumulator) are this
  function, and row p of the result only reads row p of Hs, Hd and E. Generic in M, K, D.
-/
import proofs.«139865_j29274497089903_1_alg».proof.Proof.LibMatmulNN
import proofs.«139865_j29274497089903_1_alg».proof.Proof.LibDotNN
import proofs.«139865_j29274497089903_1_alg».proof.Proof.LibHostBroadcasts
import Idealize.ShloMosaic.Lib.ValueIdx
import Idealize.ShloMosaic.PureOps.Ideal.Laws

noncomputable section

namespace Cert.EdgeUpdate

open Idealize.ShloMosaic Idealize.ShloMosaic.ValueIdx

variable {M K D : ℕ}

/-- The update map, entry by entry. -/
def update (w₁ w₂ : BitVec FTy.f32.bits) (Hs Hd : FVec Ideal ⟨2, ![M, K]⟩ .f32) (E : FVec Ideal ⟨2, ![M, D]⟩ .f32)
    (W : FVec Ideal ⟨2, ![K, D]⟩ .f32) : FVec Ideal ⟨2, ![M, D]⟩ .f32 :=
  fun i => Ideal.ofBits .f32 w₁ * E (ix2 (i 0) (i 1))
    + Ideal.ofBits .f32 w₂ * ∑ k : Fin K, (Hs (ix2 (i 0) k) * Hd (ix2 (i 0) k)) * W (ix2 k (i 1))

/-- The map at (p, q), with the coordinates named. -/
theorem update_apply (w₁ w₂ : BitVec FTy.f32.bits) (Hs Hd : FVec Ideal ⟨2, ![M, K]⟩ .f32) (E : FVec Ideal ⟨2, ![M, D]⟩ .f32)
    (W : FVec Ideal ⟨2, ![K, D]⟩ .f32) (p : Fin M) (q : Fin D) :
    update w₁ w₂ Hs Hd E W (ix2 p q) = Ideal.ofBits .f32 w₁ * E (ix2 p q)
      + Ideal.ofBits .f32 w₂ * ∑ k : Fin K, (Hs (ix2 p k) * Hd (ix2 p k)) * W (ix2 k q) := rfl

/-- Row p of the result only reads row p of the three row-indexed inputs (which may have different numbers of rows). -/
theorem update_row_congr {M' : ℕ} (w₁ w₂ : BitVec FTy.f32.bits) (Hs Hd : FVec Ideal ⟨2, ![M, K]⟩ .f32)
    (Hs' Hd' : FVec Ideal ⟨2, ![M', K]⟩ .f32) (E : FVec Ideal ⟨2, ![M, D]⟩ .f32) (E' : FVec Ideal ⟨2, ![M', D]⟩ .f32)
    (W : FVec Ideal ⟨2, ![K, D]⟩ .f32) (p : Fin M) (p' : Fin M')
    (es : ∀ j : Fin K, Hs (ix2 p j) = Hs' (ix2 p' j)) (ed : ∀ j : Fin K, Hd (ix2 p j) = Hd' (ix2 p' j))
    (eE : ∀ j : Fin D, E (ix2 p j) = E' (ix2 p' j)) (q : Fin D) :
    update w₁ w₂ Hs Hd E W (ix2 p q) = update w₁ w₂ Hs' Hd' E' W (ix2 p' q) := by
  rw [update_apply, update_apply]
  simp only [es, ed, eE]

/-- The host spelling is the update map. -/
theorem host_form (Dd : DotDims ⟨2, ![M, K]⟩ ⟨2, ![K, D]⟩ ⟨2, ![M, D]⟩) (hD : Dd = DotDims.plain M K D)
    (prec : Option ContractPrecision) (hz : (⟨0, ![]⟩ : Shape).BroadcastsInDim ⟨2, ![M, D]⟩ ![])
    (w₁ w₂ : BitVec FTy.f32.bits) (Hs Hd : FVec Ideal ⟨2, ![M, K]⟩ .f32) (E : FVec Ideal ⟨2, ![M, D]⟩ .f32)
    (W : FVec Ideal ⟨2, ![K, D]⟩ .f32) :
    addf (mulf (broadcastInDim ⟨2, ![M, D]⟩ ![] hz (constant (F := Ideal) ⟨0, ![]⟩ .f32 w₁)) E)
      (mulf (broadcastInDim ⟨2, ![M, D]⟩ ![] hz (constant (F := Ideal) ⟨0, ![]⟩ .f32 w₂))
        (Host.dotGeneral Dd prec (mulf Hs Hd) W))
    = update w₁ w₂ Hs Hd E W := by
  funext i
  obtain ⟨p, q, rfl⟩ : ∃ (p : Fin M) (q : Fin D), i = ix2 p q := ⟨i 0, i 1, eq_ix2 i⟩
  rw [update_apply, addf_apply, mulf_apply, mulf_apply]
  refine congrArg₂ (· + ·)
    (congrArg (· * E (ix2 p q)) ((HostBroadcasts.scalar_apply ![] hz _ (ix2 p q)).trans rfl))
    (congrArg₂ (· * ·) ((HostBroadcasts.scalar_apply ![] hz _ (ix2 p q)).trans rfl)
      ((DotNN.dotGeneral_apply Dd hD prec _ W p q).trans
        (Finset.sum_congr rfl fun k _ => congrArg (· * W (ix2 k q)) (mulf_apply _ _ _))))

/-- The matrix-unit spelling is the update map. -/
theorem unit_form (Dd : DotDims ⟨2, ![M, K]⟩ ⟨2, ![K, D]⟩ ⟨2, ![M, D]⟩) (hD : Dd = DotDims.plain M K D)
    (prec : Option ContractPrecision) (ht : FTy.bf16.bits < FTy.f32.bits)
    (w₁ w₂ : BitVec FTy.f32.bits) (Hs Hd : FVec Ideal ⟨2, ![M, K]⟩ .f32) (E : FVec Ideal ⟨2, ![M, D]⟩ .f32)
    (W : FVec Ideal ⟨2, ![K, D]⟩ .f32) :
    addf (mulf (broadcast ⟨2, ![M, D]⟩ (Scalar.ofBits (F := Ideal) .f32 w₁)) E)
      (mulf (broadcast ⟨2, ![M, D]⟩ (Scalar.ofBits (F := Ideal) .f32 w₂))
        (matmul Dd prec (truncf .bf16 (mulf Hs Hd) ht) (truncf .bf16 W ht)
          (constant (F := Ideal) ⟨2, ![M, D]⟩ .f32 0x00000000#32)))
    = update w₁ w₂ Hs Hd E W := by
  funext i
  obtain ⟨p, q, rfl⟩ : ∃ (p : Fin M) (q : Fin D), i = ix2 p q := ⟨i 0, i 1, eq_ix2 i⟩
  rw [update_apply, addf_apply, mulf_apply, mulf_apply]
  refine congrArg₂ (· + ·) rfl
    (congrArg₂ (· * ·) rfl
      ((MatmulNN.matmul_zero_apply Dd hD prec _ _ p q).trans
        (Finset.sum_congr rfl fun k _ => congrArg₂ (· * ·) ((truncf_apply _ ht _).trans (mulf_apply _ _ _)) rfl)))

end Cert.EdgeUpdate

end
-- ==== Proof.UpdateRegion.lean ====
/-
  The second region's output array: the updated features of every edge.

  The region runs 250 grid points; point t reads rows 3200·t … 3200·t + 3199 of the node features gathered at the two
  ends of each edge and of the old edge features, the whole of the weight matrix, and writes rows 3200·t … of the output.
  The body's result block is the update map (LibEdgeUpdate) of its input blocks; row p of an update only reads row p of
  the three row-indexed inputs, so the block written by point t is rows 3200·t … of the update map of the WHOLE arrays;
  the 250 blocks tile the array, so the array ends holding that map.
-/
import proofs.«139865_j29274497089903_1_alg».proof.Proof.Gen.KernelIdeal.Frame
import proofs.«139865_j29274497089903_1_alg».proof.Proof.LibEdgeUpdate
import Idealize.ShloMosaic.Lib.Pipeline.Value
import Idealize.ShloMosaic.Lib.ValueLayout

set_option maxRecDepth 16384

noncomputable section

namespace Cert.KernelIdeal.UpdateRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl

/-- The body's result block is the update map of its input blocks. -/
theorem block_update (x0 : Vec Ideal S3200x64 .f32) (x1 : Vec Ideal S3200x64 .f32) (x2 : Vec Ideal S3200x32 .f32) (x3 : Vec Ideal S64x32 .f32) :
    out1_4 (F := Ideal) x0 x1 x2 x3 = EdgeUpdate.update 0x3F4CCCCD#32 0x3E4CCCCD#32 x0 x1 x2 x3 := by
  unfold out1_4
  rw [View.canon_unit_zero origin2]
  simp only [View.ld_unit_zero (S := S3200x64) origin2, View.ld_unit_zero (S := S3200x32) origin2,
    View.ld_unit_zero (S := S64x32) origin2]
  unfold k1_pay1
  simp only [shapeCast_self]
  exact EdgeUpdate.unit_form _ rfl none bitsLt_bf16_f32 _ _ x0 x1 x2 x3

section Array

variable (V : (c : Dev nD) → (b : Ref sig .tc) → Buf (Elt Ideal) ((c : Thread nD τ).loc b)) (c : Dev nD)

/-- The printed index maps, decided over the 250 grid points: the three row-blocked inputs and the output are at block t
    of the rows and block 0 of the columns; the weight matrix stays at the origin. -/
theorem moves0 : ∀ t : Fin cfg1.N, win1_0.index t (0 : Fin 2) = t.val ∧ win1_0.index t (1 : Fin 2) = 0 :=
  (by decide +kernel : ∀ t : Fin grid1.N, _)
theorem moves1 : ∀ t : Fin cfg1.N, win1_1.index t (0 : Fin 2) = t.val ∧ win1_1.index t (1 : Fin 2) = 0 :=
  (by decide +kernel : ∀ t : Fin grid1.N, _)
theorem moves2 : ∀ t : Fin cfg1.N, win1_2.index t (0 : Fin 2) = t.val ∧ win1_2.index t (1 : Fin 2) = 0 :=
  (by decide +kernel : ∀ t : Fin grid1.N, _)
theorem moves4 : ∀ t : Fin cfg1.N, win1_4.index t (0 : Fin 2) = t.val ∧ win1_4.index t (1 : Fin 2) = 0 :=
  (by decide +kernel : ∀ t : Fin grid1.N, _)
theorem stays3 : ∀ t : Fin cfg1.N, win1_3.index t (0 : Fin 2) = 0 ∧ win1_3.index t (1 : Fin 2) = 0 :=
  (by decide +kernel : ∀ t : Fin grid1.N, _)

theorem point_lt (t : Fin cfg1.N) : t.val < 250 := t.isLt

/-- Row p of window 0's block at point t is row 3200·t + p of its array. -/
theorem rows0 (t : Fin cfg1.N) (p : Fin 3200) (j : Fin 64) (h : 3200 * t.val + p.val < 800000) :
    iblk1 V c 0 t (ix2 p j) = (V c main_v23 : S800000x64.Idx → EReal) (ix2 ⟨3200 * t.val + p.val, h⟩ j) := by
  show V c main_v23 (((cfg1.win 0).blk t).view.emb (ix2 p j)) = _
  refine congrArg (V c main_v23) (funext fun a => Fin.ext ?_)
  obtain ⟨e0, e1⟩ := moves0 t
  match a with
  | ⟨0, _⟩ => show win1_0.index t (0 : Fin 2) * 3200 + 1 * p.val = 3200 * t.val + p.val; omega
  | ⟨1, _⟩ => show win1_0.index t (1 : Fin 2) * 64 + 1 * j.val = j.val; omega

/-- Row p of window 1's block at point t is row 3200·t + p of its array. -/
theorem rows1 (t : Fin cfg1.N) (p : Fin 3200) (j : Fin 64) (h : 3200 * t.val + p.val < 800000) :
    iblk1 V c 1 t (ix2 p j) = (V c main_v30 : S800000x64.Idx → EReal) (ix2 ⟨3200 * t.val + p.val, h⟩ j) := by
  show V c main_v30 (((cfg1.win 1).blk t).view.emb (ix2 p j)) = _
  refine congrArg (V c main_v30) (funext fun a => Fin.ext ?_)
  obtain ⟨e0, e1⟩ := moves1 t
  match a with
  | ⟨0, _⟩ => show win1_1.index t (0 : Fin 2) * 3200 + 1 * p.val = 3200 * t.val + p.val; omega
  | ⟨1, _⟩ => show win1_1.index t (1 : Fin 2) * 64 + 1 * j.val = j.val; omega

/-- Row p of window 2's block at point t is row 3200·t + p of its array. -/
theorem rows2 (t : Fin cfg1.N) (p : Fin 3200) (j : Fin 32) (h : 3200 * t.val + p.val < 800000) :
    iblk1 V c 2 t (ix2 p j) = (V c main_arg1 : S800000x32.Idx → EReal) (ix2 ⟨3200 * t.val + p.val, h⟩ j) := by
  show V c main_arg1 (((cfg1.win 2).blk t).view.emb (ix2 p j)) = _
  refine congrArg (V c main_arg1) (funext fun a => Fin.ext ?_)
  obtain ⟨e0, e1⟩ := moves2 t
  match a with
  | ⟨0, _⟩ => show win1_2.index t (0 : Fin 2) * 3200 + 1 * p.val = 3200 * t.val + p.val; omega
  | ⟨1, _⟩ => show win1_2.index t (1 : Fin 2) * 32 + 1 * j.val = j.val; omega

/-- The weight matrix's window is its whole array at every point. -/
theorem whole3 (t : Fin cfg1.N) : (iblk1 V c 3 t : S64x32.Idx → EReal) = V c main_arg12 := by
  funext y
  show V c main_arg12 (((cfg1.win 3).blk t).view.emb y) = V c main_arg12 y
  refine congrArg (V c main_arg12) (funext fun a => Fin.ext ?_)
  obtain ⟨e0, e1⟩ := stays3 t
  match a with
  | ⟨0, _⟩ => show win1_3.index t (0 : Fin 2) * 64 + 1 * (y 0).val = (y 0).val; omega
  | ⟨1, _⟩ => show win1_3.index t (1 : Fin 2) * 32 + 1 * (y 1).val = (y 1).val; omega

/-- Entry (p, q) of the output's block at point t is entry (3200·t + p, q) of the array. -/
theorem out_emb (t : Fin cfg1.N) (p : Fin 3200) (q : Fin 32) (h : 3200 * t.val + p.val < 800000) :
    ((cfg1.win 4).blk t).view.emb (ix2 p q) = (ix2 ⟨3200 * t.val + p.val, h⟩ q : S800000x32.Idx) := by
  refine funext fun a => Fin.ext ?_
  obtain ⟨e0, e1⟩ := moves4 t
  match a with
  | ⟨0, _⟩ => show win1_4.index t (0 : Fin 2) * 3200 + 1 * p.val = 3200 * t.val + p.val; omega
  | ⟨1, _⟩ => show win1_4.index t (1 : Fin 2) * 32 + 1 * q.val = q.val; omega

/-- What point t writes back is block t of the update map of the whole arrays. -/
theorem flushed (t : Fin cfg1.N) :
    (dat1 V c).flushed 4 t = ((cfg1.win 4).blk t).view.read (Elt Ideal) (EdgeUpdate.update 0x3F4CCCCD#32 0x3E4CCCCD#32 (V c main_v23 : S800000x64.Idx → EReal) (V c main_v30 : S800000x64.Idx → EReal) (V c main_arg1 : S800000x32.Idx → EReal) (V c main_arg12 : S64x32.Idx → EReal)) := by
  show (cfg1.win 4).cut (grid1.coords t) ((dat1 V c).after 4 t) = _
  rw [after1_4]
  funext j
  obtain ⟨p, q, rfl⟩ : ∃ (p : Fin 3200) (q : Fin 32), j = ix2 p q := ⟨j 0, j 1, eq_ix2 j⟩
  have hrow : 3200 * t.val + p.val < 800000 := by have := point_lt t; have := p.isLt; omega
  show out1_4 (iblk1 V c 0 t) (iblk1 V c 1 t) (iblk1 V c 2 t) (iblk1 V c 3 t) (ix2 p q)
    = (EdgeUpdate.update 0x3F4CCCCD#32 0x3E4CCCCD#32 (V c main_v23 : S800000x64.Idx → EReal) (V c main_v30 : S800000x64.Idx → EReal) (V c main_arg1 : S800000x32.Idx → EReal) (V c main_arg12 : S64x32.Idx → EReal)) (((cfg1.win 4).blk t).view.emb (ix2 p q))
  rw [out_emb t p q hrow]
  refine (congrFun (block_update (iblk1 V c 0 t) (iblk1 V c 1 t) (iblk1 V c 2 t) (iblk1 V c 3 t)) (ix2 p q)).trans ?_
  rw [whole3 V c t]
  exact (EdgeUpdate.update_row_congr 0x3F4CCCCD#32 0x3E4CCCCD#32 (V c main_v23 : S800000x64.Idx → EReal) (V c main_v30 : S800000x64.Idx → EReal)
    (iblk1 V c 0 t) (iblk1 V c 1 t) (V c main_arg1 : S800000x32.Idx → EReal) (iblk1 V c 2 t) _ ⟨3200 * t.val + p.val, hrow⟩ p
    (fun j => (rows0 V c t p j hrow).symm) (fun j => (rows1 V c t p j hrow).symm) (fun j => (rows2 V c t p j hrow).symm) q).symm

/-- An index of the array is in point t's block iff each coordinate is in the block's range on its axis. -/
theorem mem_block (t : Fin cfg1.N) (i : S800000x32.Idx) :
    i ∈ ((cfg1.win 4).blk t).view.set ↔ ∀ a : Fin 2, win1_4.index t a * S3200x32.size a ≤ (i a).val ∧ (i a).val < win1_4.index t a * S3200x32.size a + S3200x32.size a := by
  show i ∈ ((View.whole main_v31).slice (win1_4.rect t)).set ↔ _
  rw [View.set_slice_whole, Rect.mem_set_unit]
  exact Iff.rfl

/-- The 250 blocks tile the array: row r is in the block of point r / 3200. -/
theorem covered (i : S800000x32.Idx) :
    ∃ t : Fin cfg1.N, (cfg1.win 4).flush t = true ∧ i ∈ ((cfg1.win 4).blk t).view.set := by
  have hi0 : (i 0).val < 800000 := (i 0).isLt
  have hi1 : (i 1).val < 32 := (i 1).isLt
  have hq : (i 0).val / 3200 < 250 := by omega
  refine ⟨⟨(i 0).val / 3200, hq⟩, flush1_4 _, ?_⟩
  rw [mem_block]
  obtain ⟨e0, e1⟩ := moves4 ⟨(i 0).val / 3200, hq⟩
  have e0' : win1_4.index ⟨(i 0).val / 3200, hq⟩ (0 : Fin 2) = (i 0).val / 3200 := e0
  intro a
  match a with
  | ⟨0, _⟩ => show win1_4.index ⟨(i 0).val / 3200, hq⟩ (0 : Fin 2) * 3200 ≤ (i 0).val ∧ (i 0).val < win1_4.index ⟨(i 0).val / 3200, hq⟩ (0 : Fin 2) * 3200 + 3200; omega
  | ⟨1, _⟩ => show win1_4.index ⟨(i 0).val / 3200, hq⟩ (1 : Fin 2) * 32 ≤ (i 1).val ∧ (i 1).val < win1_4.index ⟨(i 0).val / 3200, hq⟩ (1 : Fin 2) * 32 + 32; omega

/-- The output array after the region is the update map of the region's input arrays. -/
theorem array : (dat1 V c).arrAt 4 cfg1.N = EdgeUpdate.update 0x3F4CCCCD#32 0x3E4CCCCD#32 (V c main_v23 : S800000x64.Idx → EReal) (V c main_v30 : S800000x64.Idx → EReal) (V c main_arg1 : S800000x32.Idx → EReal) (V c main_arg12 : S64x32.Idx → EReal) :=
  (dat1 V c).arrAt_eq_of_cover 4 _ (fun t _ => flushed V c t) covered

end Array

end Cert.KernelIdeal.UpdateRegion

end
-- ==== Proof.LayerSpec.lean ====
/-
  One message-passing layer over 50000 nodes and 800000 edges, as a function of the whole argument arrays.

  With src, dst the two int32 index vectors of the edges (jnp's x[idx]: a negative index is first wrapped by the table's
  length, `indexColumn`; the gather then reads whole rows, `rowsAt`):

      nodes = node_h + segment_sum( message( node_h[src], edge_h, weights … ), dst )          (a host scatter-add into zeros)
      edges = c₁ · edge_h + c₂ · ( nodes[src] · nodes[dst] ) · W                               (LibEdgeUpdate, c₁ c₂ two f32 words)

  The gather and the scatter-add are kept as the host operations themselves, for ANY dimension records: the two
  programs compared apply the very same operations, so they are never opened.
-/
import proofs.«139865_j29274497089903_1_alg».proof.Proof.LibEdgeMessage
import proofs.«139865_j29274497089903_1_alg».proof.Proof.LibEdgeUpdate

noncomputable section

namespace Cert.Layer

open Idealize.ShloMosaic

variable (gd : GatherDims (⟨2, ![50000, 64]⟩ : Shape) (⟨2, ![800000, 1]⟩ : Shape) (⟨2, ![800000, 64]⟩ : Shape))
  (sd : ScatterDims (⟨2, ![50000, 64]⟩ : Shape) (⟨2, ![800000, 1]⟩ : Shape) (⟨2, ![800000, 64]⟩ : Shape))
  (hcol : (⟨1, ![800000]⟩ : Shape).BroadcastsInDim ⟨2, ![800000, 1]⟩ ![0])
  (hsc : (⟨0, ![]⟩ : Shape).BroadcastsInDim ⟨1, ![800000]⟩ ![])
  (hz : (⟨0, ![]⟩ : Shape).BroadcastsInDim ⟨2, ![50000, 64]⟩ ![])

/-- The column of start indices of x[idx]: idx + 50000 where idx is negative, idx elsewhere, as an [800000, 1] column. -/
def indexColumn (idx : IVec ⟨1, ![800000]⟩ 32) : IVec ⟨2, ![800000, 1]⟩ 32 :=
  broadcastInDim ⟨2, ![800000, 1]⟩ ![0] hcol
    (select (cmpi .slt idx (broadcastInDim ⟨1, ![800000]⟩ ![] hsc (constantI ⟨0, ![]⟩ 32 0#32)))
      (addi idx (broadcastInDim ⟨1, ![800000]⟩ ![] hsc (constantI ⟨0, ![]⟩ 32 50000#32))) idx)

/-- The rows of a node table at an index vector. -/
def rowsAt (T : FVec Ideal ⟨2, ![50000, 64]⟩ .f32) (idx : IVec ⟨1, ![800000]⟩ 32) : FVec Ideal ⟨2, ![800000, 64]⟩ .f32 :=
  Host.gather gd T (indexColumn hcol hsc idx)

/-- The new node features: the old ones plus, at each node, the sum of the messages of the edges that point to it. -/
def nodes (x0 : FVec Ideal ⟨2, ![50000, 64]⟩ .f32) (x1 : FVec Ideal ⟨2, ![800000, 32]⟩ .f32)
    (x2 : FVec Ideal ⟨2, ![64, 128]⟩ .f32) (x3 : FVec Ideal ⟨1, ![128]⟩ .f32) (x4 : FVec Ideal ⟨2, ![128, 128]⟩ .f32) (x5 : FVec Ideal ⟨1, ![128]⟩ .f32)
    (x6 : FVec Ideal ⟨2, ![32, 128]⟩ .f32) (x7 : FVec Ideal ⟨1, ![128]⟩ .f32) (x8 : FVec Ideal ⟨2, ![128, 128]⟩ .f32) (x9 : FVec Ideal ⟨1, ![128]⟩ .f32)
    (x10 : FVec Ideal ⟨2, ![128, 64]⟩ .f32) (x11 : FVec Ideal ⟨1, ![64]⟩ .f32)
    (src dst : IVec ⟨1, ![800000]⟩ 32) : FVec Ideal ⟨2, ![50000, 64]⟩ .f32 :=
  addf x0 (Host.scatterAdd sd
    (broadcastInDim ⟨2, ![50000, 64]⟩ ![] hz (constant (F := Ideal) ⟨0, ![]⟩ .f32 0x00000000#32))
    (broadcastInDim ⟨2, ![800000, 1]⟩ ![0] hcol dst)
    (EdgeMessage.message (rowsAt gd hcol hsc x0 src) x1 x2 x3 x4 x5 x6 x7 x8 x9 x10 x11))

/-- The new edge features, from the new node features at the two ends of each edge. -/
def edges (x0 : FVec Ideal ⟨2, ![50000, 64]⟩ .f32) (x1 : FVec Ideal ⟨2, ![800000, 32]⟩ .f32)
    (x2 : FVec Ideal ⟨2, ![64, 128]⟩ .f32) (x3 : FVec Ideal ⟨1, ![128]⟩ .f32) (x4 : FVec Ideal ⟨2, ![128, 128]⟩ .f32) (x5 : FVec Ideal ⟨1, ![128]⟩ .f32)
    (x6 : FVec Ideal ⟨2, ![32, 128]⟩ .f32) (x7 : FVec Ideal ⟨1, ![128]⟩ .f32) (x8 : FVec Ideal ⟨2, ![128, 128]⟩ .f32) (x9 : FVec Ideal ⟨1, ![128]⟩ .f32)
    (x10 : FVec Ideal ⟨2, ![128, 64]⟩ .f32) (x11 : FVec Ideal ⟨1, ![64]⟩ .f32)
    (x12 : FVec Ideal ⟨2, ![64, 32]⟩ .f32) (src dst : IVec ⟨1, ![800000]⟩ 32) : FVec Ideal ⟨2, ![800000, 32]⟩ .f32 :=
  EdgeUpdate.update 0x3F4CCCCD#32 0x3E4CCCCD#32
    (rowsAt gd hcol hsc (nodes gd sd hcol hsc hz x0 x1 x2 x3 x4 x5 x6 x7 x8 x9 x10 x11 src dst) src)
    (rowsAt gd hcol hsc (nodes gd sd hcol hsc hz x0 x1 x2 x3 x4 x5 x6 x7 x8 x9 x10 x11 src dst) dst) x1 x12

end Cert.Layer

end
-- ==== Proof.KernelValue.lean ====
/-
  The idealized kernel's two results as functions of the argument arrays.

  The contents of the buffers at the last segment boundary are a fold through @main: host operations (the wrapped
  gather of the source rows, the bias vectors reshaped to rows), the message region, host operations (the scatter-add of
  the messages at the destination nodes, the residual sum, the two gathers of the new node features), the edge-update
  region. Walking that fold back, with each region's output array at the map of its input arrays (MessageRegion,
  UpdateRegion), the node result is `Layer.nodes` and the edge result `Layer.edges` of the argument arrays as launched.
-/
import proofs.«139865_j29274497089903_1_alg».proof.Proof.Gen.KernelIdeal.Frame
import proofs.«139865_j29274497089903_1_alg».proof.Proof.MessageRegion
import proofs.«139865_j29274497089903_1_alg».proof.Proof.UpdateRegion
import proofs.«139865_j29274497089903_1_alg».proof.Proof.LayerSpec
import Idealize.ShloMosaic.Lib.StableHlo.Run

set_option maxRecDepth 16384

noncomputable section

namespace Cert.KernelIdeal.LayerValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The layer's new node features of the launch contents. -/
abbrev nodesOf : FVec Ideal ⟨2, ![50000, 64]⟩ .f32 :=
  Layer.nodes gather_S50000x64_S800000x1_S800000x64_1_0_n_n_0_1_164 scatter_S50000x64_S800000x1_S800000x64_1_0_0_1 bcast_S800000_S800000x1_0 bcast_S_S800000 bcast_S_S50000x64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14))

/-- The layer's new edge features of the launch contents. -/
abbrev edgesOf : FVec Ideal ⟨2, ![800000, 32]⟩ .f32 :=
  Layer.edges gather_S50000x64_S800000x1_S800000x64_1_0_n_n_0_1_164 scatter_S50000x64_S800000x1_S800000x64_1_0_0_1 bcast_S800000_S800000x1_0 bcast_S_S800000 bcast_S_S50000x64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-! ## What the message region is entered with -/

theorem entry_v6 : (V1 m ρ c main_v6 : S800000x64.Idx → EReal) = Layer.rowsAt gather_S50000x64_S800000x1_S800000x64_1_0_n_n_0_1_164 bcast_S800000_S800000x1_0 bcast_S_S800000 (m ((c : Thread nD τ).loc main_arg0)) (m ((c : Thread nD τ).loc main_arg13)) := by
  dsimp only [V1, W1, hostOps0]; after_results; rfl
theorem entry_arg1 : V1 m ρ c main_arg1 = m ((c : Thread nD τ).loc main_arg1) := by
  dsimp only [V1, W1, hostOps0]; after_results
theorem entry_arg2 : V1 m ρ c main_arg2 = m ((c : Thread nD τ).loc main_arg2) := by
  dsimp only [V1, W1, hostOps0]; after_results
theorem entry_arg4 : V1 m ρ c main_arg4 = m ((c : Thread nD τ).loc main_arg4) := by
  dsimp only [V1, W1, hostOps0]; after_results
theorem entry_arg6 : V1 m ρ c main_arg6 = m ((c : Thread nD τ).loc main_arg6) := by
  dsimp only [V1, W1, hostOps0]; after_results
theorem entry_arg8 : V1 m ρ c main_arg8 = m ((c : Thread nD τ).loc main_arg8) := by
  dsimp only [V1, W1, hostOps0]; after_results
theorem entry_arg10 : V1 m ρ c main_arg10 = m ((c : Thread nD τ).loc main_arg10) := by
  dsimp only [V1, W1, hostOps0]; after_results
theorem entry_v7 : (V1 m ρ c main_v7 : S1x128.Idx → EReal) = shapeCast S1x128 (m ((c : Thread nD τ).loc main_arg3)) shapeCasts_S128_S1x128 := by
  dsimp only [V1, W1, hostOps0]; after_results; rfl
theorem entry_v8 : (V1 m ρ c main_v8 : S1x128.Idx → EReal) = shapeCast S1x128 (m ((c : Thread nD τ).loc main_arg5)) shapeCasts_S128_S1x128 := by
  dsimp only [V1, W1, hostOps0]; after_results; rfl
theorem entry_v9 : (V1 m ρ c main_v9 : S1x128.Idx → EReal) = shapeCast S1x128 (m ((c : Thread nD τ).loc main_arg7)) shapeCasts_S128_S1x128 := by
  dsimp only [V1, W1, hostOps0]; after_results; rfl
theorem entry_v10 : (V1 m ρ c main_v10 : S1x128.Idx → EReal) = shapeCast S1x128 (m ((c : Thread nD τ).loc main_arg9)) shapeCasts_S128_S1x128 := by
  dsimp only [V1, W1, hostOps0]; after_results; rfl
theorem entry_v11 : (V1 m ρ c main_v11 : S1x64.Idx → EReal) = shapeCast S1x64 (m ((c : Thread nD τ).loc main_arg11)) shapeCasts_S64_S1x64 := by
  dsimp only [V1, W1, hostOps0]; after_results; rfl

/-! ## After the message region -/

/-- The message region leaves the messages of all edges in its output array. -/
theorem messages : W2 m ρ c (Proc.devRef .tc main_v12)
    = EdgeMessage.message (Layer.rowsAt gather_S50000x64_S800000x1_S800000x64_1_0_n_n_0_1_164 bcast_S800000_S800000x1_0 bcast_S_S800000 (m ((c : Thread nD τ).loc main_arg0)) (m ((c : Thread nD τ).loc main_arg13))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h := MessageRegion.array (V1 m ρ) c (m ((c : Thread nD τ).loc main_arg3)) (m ((c : Thread nD τ).loc main_arg5)) (m ((c : Thread nD τ).loc main_arg7)) (m ((c : Thread nD τ).loc main_arg9)) (m ((c : Thread nD τ).loc main_arg11))
    (entry_v7 m ρ c) (entry_v8 m ρ c) (entry_v9 m ρ c) (entry_v10 m ρ c) (entry_v11 m ρ c)
  rw [entry_v6 m ρ c, entry_arg1 m ρ c, entry_arg2 m ρ c, entry_arg4 m ρ c, entry_arg6 m ρ c, entry_arg8 m ρ c,
    entry_arg10 m ρ c] at h
  exact (W2_arr m ρ c 12).trans h

theorem W2_arg0 : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  dsimp only [hostOps0]; after_results
theorem W2_arg12 : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  dsimp only [hostOps0]; after_results
theorem W2_arg13 : W2 m ρ c (Proc.devRef .tc main_arg13) = m ((c : Thread nD τ).loc main_arg13) := by
  refine (W2_of_ne m ρ c main_arg13 (by decide)).trans ?_
  show StableHlo.after hostOps0 (W0 m ρ c) (Proc.devRef .tc main_arg13) = _
  dsimp only [hostOps0]; after_results
theorem W2_arg14 : W2 m ρ c (Proc.devRef .tc main_arg14) = m ((c : Thread nD τ).loc main_arg14) := by
  refine (W2_of_ne m ρ c main_arg14 (by decide)).trans ?_
  show StableHlo.after hostOps0 (W0 m ρ c) (Proc.devRef .tc main_arg14) = _
  dsimp only [hostOps0]; after_results
/-- The edge features are an input window of the message region: the region leaves them as it found them. -/
theorem W2_arg1 : W2 m ρ c (Proc.devRef .tc main_arg1) = m ((c : Thread nD τ).loc main_arg1) :=
  (W2_arr m ρ c 1).trans (((dat0 (V1 m ρ) c).arrAt_in 1 rfl _).trans ((A_eq0 (V1 m ρ) c 1).trans (entry_arg1 m ρ c)))

/-! ## The node result -/

theorem W3_v16 : W3 m ρ c (Proc.devRef .tc main_v16) = nodesOf m c := by
  show StableHlo.after hostOps1 (W2 m ρ c) (Proc.devRef .tc main_v16) = _
  dsimp only [hostOps1]
  after_results
  rw [W2_arg0 m ρ c, W2_arg14 m ρ c, messages m ρ c]
  rfl

/-- The node result is the layer's new node features. -/
theorem nodes_value : W4 m ρ c (Proc.devRef .tc main_v16) = nodesOf m c :=
  (W4_of_ne m ρ c main_v16 (by decide)).trans (W3_v16 m ρ c)

/-! ## What the edge-update region is entered with, and the edge result -/

set_option maxHeartbeats 1600000 in
theorem entry_v23 : (V3 m ρ c main_v23 : S800000x64.Idx → EReal) = Layer.rowsAt gather_S50000x64_S800000x1_S800000x64_1_0_n_n_0_1_164 bcast_S800000_S800000x1_0 bcast_S_S800000 (nodesOf m c) (m ((c : Thread nD τ).loc main_arg13)) := by
  show StableHlo.after hostOps1 (W2 m ρ c) (Proc.devRef .tc main_v23) = _
  dsimp only [hostOps1]
  after_results_simp
  rw [W2_arg0 m ρ c, W2_arg13 m ρ c, W2_arg14 m ρ c, messages m ρ c]
  rfl
set_option maxHeartbeats 1600000 in
theorem entry_v30 : (V3 m ρ c main_v30 : S800000x64.Idx → EReal) = Layer.rowsAt gather_S50000x64_S800000x1_S800000x64_1_0_n_n_0_1_164 bcast_S800000_S800000x1_0 bcast_S_S800000 (nodesOf m c) (m ((c : Thread nD τ).loc main_arg14)) := by
  show StableHlo.after hostOps1 (W2 m ρ c) (Proc.devRef .tc main_v30) = _
  dsimp only [hostOps1]
  after_results_simp
  rw [W2_arg0 m ρ c, W2_arg14 m ρ c, messages m ρ c]
  rfl
theorem entry1_arg1 : V3 m ρ c main_arg1 = m ((c : Thread nD τ).loc main_arg1) := by
  dsimp only [V3, W3, hostOps1]
  after_results
  exact W2_arg1 m ρ c
theorem entry1_arg12 : V3 m ρ c main_arg12 = m ((c : Thread nD τ).loc main_arg12) := by
  dsimp only [V3, W3, hostOps1]
  after_results
  exact W2_arg12 m ρ c

/-- The edge result is the layer's new edge features. -/
theorem edges_value : W4 m ρ c (Proc.devRef .tc main_v31) = edgesOf m c := by
  have h := UpdateRegion.array (V3 m ρ) c
  rw [entry_v23 m ρ c, entry_v30 m ρ c, entry1_arg1 m ρ c, entry1_arg12 m ρ c] at h
  exact (W4_arr m ρ c 4).trans h

end Cert.KernelIdeal.LayerValue

end
-- ==== Proof.ReferenceValue.lean ====
/-
  The idealized reference's two results as functions of the argument arrays.

  The reference is one line of host operations; its generated run states each result as the operations' composed term of
  the launch contents. In that term the chain dot_general / bias / maximum / dot_general / bias (twice), multiply,
  dot_general, bias, tanh is the host spelling of the message map (LibEdgeMessage), and the chain splat-constant multiply,
  dot_general of a product, splat-constant multiply, add is the host spelling of the update map (LibEdgeUpdate); the
  gathers and the scatter-add around them are the layer's own. So the node result is `Layer.nodes` and the edge result
  `Layer.edges` of the argument arrays.
-/
import proofs.«139865_j29274497089903_1_alg».proof.Proof.Gen.ReferenceIdeal.Run
import proofs.«139865_j29274497089903_1_alg».proof.Proof.LayerSpec

set_option maxRecDepth 16384

noncomputable section

namespace Cert.ReferenceIdeal.LayerValue

open Cert.ReferenceIdeal Cert.ReferenceIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The layer's new node features of the launch contents. -/
abbrev nodesOf (c : Dev nD) : FVec Ideal ⟨2, ![50000, 64]⟩ .f32 :=
  Layer.nodes gather_S50000x64_S800000x1_S800000x64_1_0_n_n_0_1_164 scatter_S50000x64_S800000x1_S800000x64_1_0_0_1 bcast_S800000_S800000x1_0 bcast_S_S800000 bcast_S_S50000x64 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13)) (m ((c.tc : Thread nD τ).loc main_arg14))

/-- The layer's new edge features of the launch contents. -/
abbrev edgesOf (c : Dev nD) : FVec Ideal ⟨2, ![800000, 32]⟩ .f32 :=
  Layer.edges gather_S50000x64_S800000x1_S800000x64_1_0_n_n_0_1_164 scatter_S50000x64_S800000x1_S800000x64_1_0_0_1 bcast_S800000_S800000x1_0 bcast_S_S800000 bcast_S_S50000x64 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))

/-- Every weakly fair execution of the reference terminates with the node result at the layer's new node features, the
    edge result at its new edge features, and the arguments unchanged. -/
theorem run : θ_run defs (onTc (τ := τ) (main (F := Ideal))) ⟨m, fun _ => 0, ρ⟩ fun r => ∀ c : Dev nD,
      r.2.mem ((c.tc : Thread nD τ).loc main_v34) = nodesOf m c
      ∧ r.2.mem ((c.tc : Thread nD τ).loc main_v55) = edgesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun _ h c => ⟨(h c).1.trans ?_, (h c).2.1.trans ?_, (h c).2.2⟩)
    (Cert.ReferenceIdeal.Value.run (F := Ideal) m ρ)
  · rw [EdgeMessage.host_form dot_S800000x64_S64x128_S800000x128_1_0_0_1_n_n rfl
    dot_S800000x128_S128x128_S800000x128_1_0_0_1_n_n rfl dot_S800000x32_S32x128_S800000x128_1_0_0_1_n_n rfl
    dot_S800000x128_S128x64_S800000x64_1_0_0_1_n_n rfl none bcast_S128_S1x128_1 bcast_S1x128_S800000x128_0_1
    bcast_S_S800000x128 bcast_S64_S1x64_1 bcast_S1x64_S800000x64_0_1]
    rfl
  · unfold Cert.ReferenceIdeal.Value.res_main_v55
    rw [EdgeUpdate.host_form dot_S800000x64_S64x32_S800000x32_1_0_0_1_n_n rfl none bcast_S_S800000x32,
      EdgeMessage.host_form dot_S800000x64_S64x128_S800000x128_1_0_0_1_n_n rfl
    dot_S800000x128_S128x128_S800000x128_1_0_0_1_n_n rfl dot_S800000x32_S32x128_S800000x128_1_0_0_1_n_n rfl
    dot_S800000x128_S128x64_S800000x64_1_0_0_1_n_n rfl none bcast_S128_S1x128_1 bcast_S1x128_S800000x128_0_1
    bcast_S_S800000x128 bcast_S64_S1x64_1 bcast_S1x64_S800000x64_0_1]
    rfl

end Cert.ReferenceIdeal.LayerValue

end
-- ==== Proof.lean ====
/-
  A message-passing layer on a graph of 50000 nodes and 800000 edges: the kernel against its reference.

  Both programs compute, from node features node_h, edge features edge_h, two index vectors src, dst and the weights of
  two two-layer perceptrons and two linear maps,

      m      = tanh( ( mlp_n(node_h[src]) · mlp_e(edge_h) ) W_c + b_c )            one message per edge,
      nodes  = node_h + Σ_{edges e with dst e = v} m[e]                              (segment sum, residual),
      edges  = 0.8 · edge_h + 0.2 · ( nodes[src] · nodes[dst] ) W_ue                 (the two constants as f32 words).

  The kernel computes m and edges in two row-blocked regions (250 blocks of 3200 edges each, matrix products on
  bf16-narrowed operands — the identity on extended reals — into zero accumulators, biases as [1, n] rows); the reference
  is one line of host operations. The gathers, the scatter-add and the residual sum are the same host operations in both.
  Over the extended reals the two sides are the same function of the arguments entry by entry: no law beyond reading each
  matrix product as its sum is used, so the finiteness precondition is never opened.

  KernelRun names the kernel's two results at the end of its run; MessageRegion and UpdateRegion show each region's
  output array is the message map / the update map of its input arrays; KernelValue walks the host operations between
  them; ReferenceValue reads the reference's run as the same two functions (LayerSpec).
-/
import proofs.«139865_j29274497089903_1_alg».proof.Defs
import proofs.«139865_j29274497089903_1_alg».proof.Proof.Gen.Kernel
import proofs.«139865_j29274497089903_1_alg».proof.Proof.Gen.Kernel.Frame
import proofs.«139865_j29274497089903_1_alg».proof.Proof.Gen.KernelIdeal
import proofs.«139865_j29274497089903_1_alg».proof.Proof.Gen.KernelIdeal.Frame
import proofs.«139865_j29274497089903_1_alg».proof.Proof.Gen.ReferenceIdeal
import proofs.«139865_j29274497089903_1_alg».proof.Proof.Gen.ReferenceIdeal.Run
import proofs.«139865_j29274497089903_1_alg».proof.Proof.Gen.Pre_finite_inputs
import proofs.«139865_j29274497089903_1_alg».proof.Proof.KernelRun
import proofs.«139865_j29274497089903_1_alg».proof.Proof.KernelValue
import proofs.«139865_j29274497089903_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.LayerValue.run m ρ)

/-- The layer functions of the reference's arguments are those of the kernel's, the arguments agreeing: the two
    programs' gather and scatter records are the same records. -/
theorem nodes_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.LayerValue.nodesOf m' c = Cert.KernelIdeal.LayerValue.nodesOf m c
    ∧ Cert.ReferenceIdeal.LayerValue.edgesOf m' c = Cert.KernelIdeal.LayerValue.edgesOf m c := by
  unfold Cert.ReferenceIdeal.LayerValue.nodesOf Cert.ReferenceIdeal.LayerValue.edgesOf
  rw [a0, a1, a2, a3, a4, a5, a6, a7, a8, a9, a10, a11, a12, a13, a14]
  exact ⟨rfl, rfl⟩

/-- At the ideal instance the kernel's results are the layer's node and edge functions of its arguments (the run read
    through the two regions), and so are the reference's (its run read back); the arguments agree. -/
theorem algebraic : Cert.algebraic_KernelIdeal_ReferenceIdeal := by
  intro m ρ m' ρ' _ hagree
  refine ⟨fun c => Cert.KernelIdeal.LayerValue.nodesOf m c, fun c => Cert.KernelIdeal.LayerValue.edgesOf m c, ?_, ?_⟩
  · exact (θ_run Cert.KernelIdeal.defs _ _).mono
      (fun r h c => ⟨(h c).1.trans (Cert.KernelIdeal.LayerValue.nodes_value m ρ c),
        (h c).2.1.trans (Cert.KernelIdeal.LayerValue.edges_value m ρ c), (h c).2.2⟩)
      (Cert.KernelIdeal.Results.run m ρ)
  · refine (θ_run Cert.ReferenceIdeal.defs _ _).mono (fun r h c => ?_) (Cert.ReferenceIdeal.LayerValue.run m' ρ')
    obtain ⟨a0, a1, a2, a3, a4, a5, a6, a7, a8, a9, a10, a11, a12, a13, a14⟩ := hagree c
    obtain ⟨en, ee⟩ := nodes_agree m m' c a0 a1 a2 a3 a4 a5 a6 a7 a8 a9 a10 a11 a12 a13 a14
    exact ⟨(h c).1.trans en, (h c).2.1.trans ee, (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
